-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x6400000 : Shape := ⟨2, ![2, 6400000]⟩
abbrev S2x1x16 : Shape := ⟨3, ![2, 1, 16]⟩
abbrev S16 : Shape := ⟨1, ![16]⟩
abbrev S2x16x1 : Shape := ⟨3, ![2, 16, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S2x1x16 : S_.BroadcastsInDim S2x1x16 (![] : Fin 0 → Fin S2x1x16.rank)
  reducesTo_S2x1x16_S_d0_1_2 : S2x1x16.ReducesTo [0, 1, 2] S_
  bcast_S_S16 : S_.BroadcastsInDim S16 (![] : Fin 0 → Fin S16.rank)
  reducesTo_S16_S_d0 : S16.ReducesTo [0] S_
  bcast_S_S2x16x1 : S_.BroadcastsInDim S2x16x1 (![] : Fin 0 → Fin S2x16x1.rank)
  reducesTo_S2x16x1_S_d0_1_2 : S2x16x1.ReducesTo [0, 1, 2] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S2x16x1 1) : IVec S_ 1 :=
  let main_c_5 : IVec S_ 1 := constantI S_ 1 1#1
  let main_v17 : IVec S_ 1 := (fun x v => Host.reduce IntOp.andi x v reducesTo_S2x16x1_S_d0_1_2 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x1 .f32) (main_arg1 : IVec S2x6400000 32) (main_arg2 : FVec F S2x1x16 .f32) (main_arg3 : FVec F S16 .f32) (main_arg4 : FVec F S2x16x1 .f32) (main_arg5 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S2x1x16 .f32 := Host.absf main_arg2
  let main_cst_0 : FVec F S_ .f32 := constant S_ .f32 0x7F800000#32
  let main_v5 : FVec F S2x1x16 .f32 := broadcastInDim S2x1x16 ![] bcast_S_S2x1x16 main_cst_0
  let main_v6 : IVec S2x1x16 1 := cmpf .olt main_v4 main_v5
  let main_c_1 : IVec S_ 1 := constantI S_ 1 1#1
  let main_v7 : IVec S_ 1 := (fun x v => Host.reduce IntOp.andi x v reducesTo_S2x1x16_S_d0_1_2 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S2x16x1 .f32 := Host.absf main_arg4
  let main_cst_4 : FVec F S_ .f32 := constant S_ .f32 0x7F800000#32
  let main_v15 : FVec F S2x16x1 .f32 := broadcastInDim S2x16x1 ![] bcast_S_S2x16x1 main_cst_4
  let main_v16 : IVec S2x16x1 1 := cmpf .olt main_v14 main_v15
  fn_part1 (F := F) main_arg5 main_v13 main_v16
-- ==== Kernel.lean ====
abbrev S100000x1 : Shape := ⟨2, ![100000, 1]⟩
abbrev S2x6400000 : Shape := ⟨2, ![2, 6400000]⟩
abbrev S2x1x16 : Shape := ⟨3, ![2, 1, 16]⟩
abbrev S16 : Shape := ⟨1, ![16]⟩
abbrev S2x16x1 : Shape := ⟨3, ![2, 16, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S100000 : Shape := ⟨1, ![100000]⟩
abbrev S6400000x1 : Shape := ⟨2, ![6400000, 1]⟩
abbrev S1x1x16 : Shape := ⟨3, ![1, 1, 16]⟩
abbrev S1x16 : Shape := ⟨2, ![1, 16]⟩
abbrev S100000x16 : Shape := ⟨2, ![100000, 16]⟩
abbrev S10000x1 : Shape := ⟨2, ![10000, 1]⟩
abbrev S10000x16 : Shape := ⟨2, ![10000, 16]⟩
abbrev S6400000x16 : Shape := ⟨2, ![6400000, 16]⟩
abbrev S1x16x1 : Shape := ⟨3, ![1, 16, 1]⟩
abbrev S16x1 : Shape := ⟨2, ![16, 1]⟩
abbrev S1x1 : Shape := ⟨2, ![1, 1]⟩

abbrev nBuf : Space → Nat
  | .hbm => 88
  | .vmem => 18
  | .smem => 0
  | _ => 0

abbrev bufTy : (tb : Table) → Fin (tcTables nBuf tb) → BufTy
  | .hbm, ⟨0, _⟩ => ⟨S100000x1, .f32⟩
  | .hbm, ⟨1, _⟩ => ⟨S2x6400000, .i32⟩
  | .hbm, ⟨2, _⟩ => ⟨S2x1x16, .f32⟩
  | .hbm, ⟨3, _⟩ => ⟨S16, .f32⟩
  | .hbm, ⟨4, _⟩ => ⟨S2x16x1, .f32⟩
  | .hbm, ⟨5, _⟩ => ⟨S1, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S_, .f32⟩
  | .hbm, ⟨11, _⟩ => ⟨S6400000, .f32⟩
  | .hbm, ⟨12, _⟩ => ⟨S_, .f32⟩
  | .hbm, ⟨13, _⟩ => ⟨S100000, .f32⟩
  | .hbm, ⟨14, _⟩ => ⟨S6400000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S6400000, .i32⟩
  | .hbm, ⟨29, _⟩ => ⟨S6400000, .i1⟩
  | .hbm, ⟨30, _⟩ => ⟨S_, .i32⟩
  | .hbm, ⟨31, _⟩ => ⟨S6400000, .i32⟩
  | .hbm, ⟨32, _⟩ => ⟨S6400000, .i32⟩
  | .hbm, ⟨33, _⟩ => ⟨S6400000, .i32⟩
  | .hbm, ⟨34, _⟩ => ⟨S6400000x1, .i32⟩
  | .hbm, ⟨35, _⟩ => ⟨S6400000, .f32⟩
  | .hbm, ⟨36, _⟩ => ⟨S_, .i32⟩
  | .hbm, ⟨37, _⟩ => ⟨S6400000, .i32⟩
  | .hbm, ⟨38, _⟩ => ⟨S6400000, .i1⟩
  | .hbm, ⟨39, _⟩ => ⟨S_, .i32⟩
  | .hbm, ⟨40, _⟩ => ⟨S6400000, .i32⟩
  | .hbm, ⟨41, _⟩ => ⟨S6400000, .i32⟩
  | .hbm, ⟨42, _⟩ => ⟨S6400000, .i32⟩
  | .hbm, ⟨43, _⟩ => ⟨S6400000x1, .i32⟩
  | .hbm, ⟨44, _⟩ => ⟨S6400000, .f32⟩
  | .hbm, ⟨45, _⟩ => ⟨S6400000, .f32⟩
  | .hbm, ⟨46, _⟩ => ⟨S6400000, .f32⟩
  | .hbm, ⟨47, _⟩ => ⟨S_, .i32⟩
  | .hbm, ⟨48, _⟩ => ⟨S6400000, .i32⟩
  | .hbm, ⟨49, _⟩ => ⟨S6400000, .i1⟩
  | .hbm, ⟨50, _⟩ => ⟨S_, .i32⟩
  | .hbm, ⟨51, _⟩ => ⟨S6400000, .i32⟩
  | .hbm, ⟨52, _⟩ => ⟨S6400000, .i32⟩
  | .hbm, ⟨53, _⟩ => ⟨S6400000, .i32⟩
  | .hbm, ⟨54, _⟩ => ⟨S6400000x1, .i32⟩
  | .hbm, ⟨55, _⟩ => ⟨S6400000x1, .f32⟩
  | .hbm, ⟨56, _⟩ => ⟨S6400000x1, .f32⟩
  | .hbm, ⟨57, _⟩ => ⟨S6400000x1, .f32⟩
  | .hbm, ⟨58, _⟩ => ⟨S_, .f32⟩
  | .hbm, ⟨59, _⟩ => ⟨S100000x1, .f32⟩
  | .hbm, ⟨60, _⟩ => ⟨S6400000x1, .i32⟩
  | .hbm, ⟨61, _⟩ => ⟨S100000x1, .f32⟩
  | .hbm, ⟨62, _⟩ => ⟨S1x1x16, .f32⟩
  | .hbm, ⟨63, _⟩ => ⟨S1x16, .f32⟩
  | .hbm, ⟨64, _⟩ => ⟨S1x1x16, .f32⟩
  | .hbm, ⟨65, _⟩ => ⟨S1x16, .f32⟩
  | .hbm, ⟨66, _⟩ => ⟨S100000x16, .f32⟩
  | .hbm, ⟨67, _⟩ => ⟨S_, .i32⟩
  | .hbm, ⟨68, _⟩ => ⟨S6400000, .i32⟩
  | .hbm, ⟨69, _⟩ => ⟨S6400000, .i1⟩
  | .hbm, ⟨70, _⟩ => ⟨S_, .i32⟩
  | .hbm, ⟨71, _⟩ => ⟨S6400000, .i32⟩
  | .hbm, ⟨72, _⟩ => ⟨S6400000, .i32⟩
  | .hbm, ⟨73, _⟩ => ⟨S6400000, .i32⟩
  | .hbm, ⟨74, _⟩ => ⟨S6400000x1, .i32⟩
  | .hbm, ⟨75, _⟩ => ⟨S6400000x16, .f32⟩
  | .hbm, ⟨76, _⟩ => ⟨S6400000x1, .f32⟩
  | .hbm, ⟨77, _⟩ => ⟨S6400000x16, .f32⟩
  | .hbm, ⟨78, _⟩ => ⟨S6400000x16, .f32⟩
  | .hbm, ⟨79, _⟩ => ⟨S_, .f32⟩
  | .hbm, ⟨80, _⟩ => ⟨S100000x16, .f32⟩
  | .hbm, ⟨81, _⟩ => ⟨S6400000x1, .i32⟩
  | .hbm, ⟨82, _⟩ => ⟨S100000x16, .f32⟩
  | .hbm, ⟨83, _⟩ => ⟨S1x16x1, .f32⟩
  | .hbm, ⟨84, _⟩ => ⟨S16x1, .f32⟩
  | .hbm, ⟨85, _⟩ => ⟨S1x16x1, .f32⟩
  | .hbm, ⟨86, _⟩ => ⟨S16x1, .f32⟩
  | .hbm, ⟨87, _⟩ => ⟨S100000x1, .f32⟩
  | .local _ .vmem, ⟨0, _⟩ => ⟨S10000x1, .f32⟩
  | .local _ .vmem, ⟨1, _⟩ => ⟨S10000x1, .f32⟩
  | .local _ .vmem, ⟨2, _⟩ => ⟨S10000x1, .f32⟩
  | .local _ .vmem, ⟨3, _⟩ => ⟨S10000x1, .f32⟩
  | .local _ .vmem, ⟨4, _⟩ => ⟨S1x16, .f32⟩
  | .local _ .vmem, ⟨5, _⟩ => ⟨S1x16, .f32⟩
  | .local _ .vmem, ⟨6, _⟩ => ⟨S16, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S16x1, .f32⟩
  | .local _ .vmem, ⟨14, _⟩ => ⟨S16x1, .f32⟩
  | .local _ .vmem, ⟨15, _⟩ => ⟨S1, .f32⟩
  | .local _ .vmem, ⟨16, _⟩ => ⟨S10000x1, .f32⟩
  | .local _ .vmem, ⟨17, _⟩ => ⟨S10000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S100000 : S_.BroadcastsInDim S100000 (![] : Fin 0 → Fin S100000.rank)
  bcast_S6400000_S6400000x1_0 : S6400000.BroadcastsInDim S6400000x1 (![0] : Fin 1 → Fin S6400000x1.rank)
  bcast_S_S100000x1 : S_.BroadcastsInDim S100000x1 (![] : Fin 0 → Fin S100000x1.rank)
  slices_S2x1x16_S1x1x16_0_0_0 : S2x1x16.Slices ![0, 0, 0] S1x1x16
  shapeCasts_S1x1x16_S1x16 : S1x1x16.ShapeCasts S1x16
  slices_S2x1x16_S1x1x16_1_0_0 : S2x1x16.Slices ![1, 0, 0] S1x1x16
  inb_S10000x1_S10000x1_0_0 : ∀ a, (![0, 0] : Fin 2 → Nat) a + S10000x1.size a ≤ S10000x1.size a
  h_S10000x1 : 0 < S10000x1.numel
  bitsLt_bf16_f32 : FTy.bits .bf16 < FTy.bits .f32
  shapeCasts_S10000x1_S10000x1 : S10000x1.ShapeCasts S10000x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S6400000x1_S6400000x16_0_1 : S6400000x1.BroadcastsInDim S6400000x16 (![0, 1] : Fin 2 → Fin S6400000x16.rank)
  bcast_S_S100000x16 : S_.BroadcastsInDim S100000x16 (![] : Fin 0 → Fin S100000x16.rank)
  slices_S2x16x1_S1x16x1_0_0_0 : S2x16x1.Slices ![0, 0, 0] S1x16x1
  shapeCasts_S1x16x1_S16x1 : S1x16x1.ShapeCasts S16x1
  slices_S2x16x1_S1x16x1_1_0_0 : S2x16x1.Slices ![1, 0, 0] S1x16x1
  shapeCasts_S10000x16_S10000x16 : S10000x16.ShapeCasts S10000x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  scatter_S100000_S6400000x1_S6400000_n_0_0_1_wf : ScatterDims.WF S100000 S6400000x1 S6400000 [] [0] [0] 1
  gather_S100000_S6400000x1_S6400000_n_0_n_n_0_1_1_wf : GatherDims.WF S100000 S6400000x1 S6400000 [] [0] [] [0] [] 1 ![1]
  gather_S100000x1_S6400000x1_S6400000x1_1_0_n_n_0_1_11_wf : GatherDims.WF S100000x1 S6400000x1 S6400000x1 [1] [0] [] [0] [] 1 ![1, 1]
  scatter_S100000x1_S6400000x1_S6400000x1_1_0_0_1_wf : ScatterDims.WF S100000x1 S6400000x1 S6400000x1 [1] [0] [0] 1
  dot_S10000x1_S1x16_S10000x16_1_0_0_1_n_n_wf : DotDims.WF S10000x1 S1x16 S10000x16 [1] [0] [0] [1] [] []
  gather_S100000x16_S6400000x1_S6400000x16_1_0_n_n_0_1_116_wf : GatherDims.WF S100000x16 S6400000x1 S6400000x16 [1] [0] [] [0] [] 1 ![1, 16]
  scatter_S100000x16_S6400000x1_S6400000x16_1_0_0_1_wf : ScatterDims.WF S100000x16 S6400000x1 S6400000x16 [1] [0] [0] 1
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x16.size a ≤ S100000x16.size a
  hwx0_5 : ∀ i : grid0.Coords, EltTy.bits .f32 = 32 ∨ (Rect.block (s := S100000x16) S10000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S16x1.size a
  hwx1_2 : ∀ i : grid1.Coords, EltTy.bits .f32 = 32 ∨ (Rect.block (s := S16x1) S16x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x1.size a ≤ S16x1.size a
  hwx1_3 : ∀ i : grid1.Coords, EltTy.bits .f32 = 32 ∨ (Rect.block (s := S16x1) S16x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x1.size a ≤ S100000x1.size a
  hwx1_5 : ∀ i : grid1.Coords, EltTy.bits .f32 = 32 ∨ (Rect.block (s := S100000x1) S10000x1.size (cc1_transform_5 i) (hinb1_5 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S100000x1_S6400000x1_S6400000x1_1_0_n_n_0_1_11 : GatherDims S100000x1 S6400000x1 S6400000x1 where
  offsetDims := [1]
  collapsedSliceDims := [0]
  operandBatchingDims := []
  startIndicesBatchingDims := []
  startIndexMap := [0]
  indexVectorDim := 1
  sliceSizes := ![1, 1]
  wf := gather_S100000x1_S6400000x1_S6400000x1_1_0_n_n_0_1_11_wf
def scatter_S100000x1_S6400000x1_S6400000x1_1_0_0_1 : ScatterDims S100000x1 S6400000x1 S6400000x1 where
  updateWindowDims := [1]
  insertedWindowDims := [0]
  scatterDimsToOperandDims := [0]
  indexVectorDim := 1
  wf := scatter_S100000x1_S6400000x1_S6400000x1_1_0_0_1_wf
def dot_S10000x1_S1x16_S10000x16_1_0_0_1_n_n : DotDims S10000x1 S1x16 S10000x16 where
  lhsContracting := [1]
  rhsContracting := [0]
  lhsNonContracting := [0]
  rhsNonContracting := [1]
  lhsBatch := []
  rhsBatch := []
  wf := dot_S10000x1_S1x16_S10000x16_1_0_0_1_n_n_wf
def gather_S100000x16_S6400000x1_S6400000x16_1_0_n_n_0_1_116 : GatherDims S100000x16 S6400000x1 S6400000x16 where
  offsetDims := [1]
  collapsedSliceDims := [0]
  operandBatchingDims := []
  startIndicesBatchingDims := []
  startIndexMap := [0]
  indexVectorDim := 1
  sliceSizes := ![1, 16]
  wf := gather_S100000x16_S6400000x1_S6400000x16_1_0_n_n_0_1_116_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S10000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v61) S16x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S16x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v64) S10000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x1 : Shape := ⟨2, ![100000, 1]⟩
abbrev S2x6400000 : Shape := ⟨2, ![2, 6400000]⟩
abbrev S2x1x16 : Shape := ⟨3, ![2, 1, 16]⟩
abbrev S16 : Shape := ⟨1, ![16]⟩
abbrev S2x16x1 : Shape := ⟨3, ![2, 16, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S100000 : Shape := ⟨1, ![100000]⟩
abbrev S6400000x1 : Shape := ⟨2, ![6400000, 1]⟩
abbrev S1x1x16 : Shape := ⟨3, ![1, 1, 16]⟩
abbrev S1x16 : Shape := ⟨2, ![1, 16]⟩
abbrev S100000x16 : Shape := ⟨2, ![100000, 16]⟩
abbrev S1x16x1 : Shape := ⟨3, ![1, 16, 1]⟩
abbrev S16x1 : Shape := ⟨2, ![16, 1]⟩
abbrev S6400000x16 : Shape := ⟨2, ![6400000, 16]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x6400000, .i32⟩
  | .hbm, ⟨2, _⟩ => ⟨S2x1x16, .f32⟩
  | .hbm, ⟨3, _⟩ => ⟨S16, .f32⟩
  | .hbm, ⟨4, _⟩ => ⟨S2x16x1, .f32⟩
  | .hbm, ⟨5, _⟩ => ⟨S1, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S_, .f32⟩
  | .hbm, ⟨11, _⟩ => ⟨S6400000, .f32⟩
  | .hbm, ⟨12, _⟩ => ⟨S_, .f32⟩
  | .hbm, ⟨13, _⟩ => ⟨S100000, .f32⟩
  | .hbm, ⟨14, _⟩ => ⟨S6400000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S6400000, .i32⟩
  | .hbm, ⟨29, _⟩ => ⟨S6400000, .i1⟩
  | .hbm, ⟨30, _⟩ => ⟨S_, .i32⟩
  | .hbm, ⟨31, _⟩ => ⟨S6400000, .i32⟩
  | .hbm, ⟨32, _⟩ => ⟨S6400000, .i32⟩
  | .hbm, ⟨33, _⟩ => ⟨S6400000, .i32⟩
  | .hbm, ⟨34, _⟩ => ⟨S6400000x1, .i32⟩
  | .hbm, ⟨35, _⟩ => ⟨S6400000, .f32⟩
  | .hbm, ⟨36, _⟩ => ⟨S_, .i32⟩
  | .hbm, ⟨37, _⟩ => ⟨S6400000, .i32⟩
  | .hbm, ⟨38, _⟩ => ⟨S6400000, .i1⟩
  | .hbm, ⟨39, _⟩ => ⟨S_, .i32⟩
  | .hbm, ⟨40, _⟩ => ⟨S6400000, .i32⟩
  | .hbm, ⟨41, _⟩ => ⟨S6400000, .i32⟩
  | .hbm, ⟨42, _⟩ => ⟨S6400000, .i32⟩
  | .hbm, ⟨43, _⟩ => ⟨S6400000x1, .i32⟩
  | .hbm, ⟨44, _⟩ => ⟨S6400000, .f32⟩
  | .hbm, ⟨45, _⟩ => ⟨S6400000, .f32⟩
  | .hbm, ⟨46, _⟩ => ⟨S6400000, .f32⟩
  | .hbm, ⟨47, _⟩ => ⟨S1x1x16, .f32⟩
  | .hbm, ⟨48, _⟩ => ⟨S1x16, .f32⟩
  | .hbm, ⟨49, _⟩ => ⟨S100000x16, .f32⟩
  | .hbm, ⟨50, _⟩ => ⟨S_, .i32⟩
  | .hbm, ⟨51, _⟩ => ⟨S6400000, .i32⟩
  | .hbm, ⟨52, _⟩ => ⟨S6400000, .i1⟩
  | .hbm, ⟨53, _⟩ => ⟨S_, .i32⟩
  | .hbm, ⟨54, _⟩ => ⟨S6400000, .i32⟩
  | .hbm, ⟨55, _⟩ => ⟨S6400000, .i32⟩
  | .hbm, ⟨56, _⟩ => ⟨S6400000, .i32⟩
  | .hbm, ⟨57, _⟩ => ⟨S6400000x1, .i32⟩
  | .hbm, ⟨58, _⟩ => ⟨S6400000x1, .f32⟩
  | .hbm, ⟨59, _⟩ => ⟨S6400000x1, .f32⟩
  | .hbm, ⟨60, _⟩ => ⟨S6400000x1, .f32⟩
  | .hbm, ⟨61, _⟩ => ⟨S_, .f32⟩
  | .hbm, ⟨62, _⟩ => ⟨S100000x1, .f32⟩
  | .hbm, ⟨63, _⟩ => ⟨S6400000x1, .i32⟩
  | .hbm, ⟨64, _⟩ => ⟨S100000x1, .f32⟩
  | .hbm, ⟨65, _⟩ => ⟨S1x1x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S1x16, .f32⟩
  | .hbm, ⟨70, _⟩ => ⟨S100000x16, .f32⟩
  | .hbm, ⟨71, _⟩ => ⟨S100000x16, .f32⟩
  | .hbm, ⟨72, _⟩ => ⟨S_, .f32⟩
  | .hbm, ⟨73, _⟩ => ⟨S100000x16, .f32⟩
  | .hbm, ⟨74, _⟩ => ⟨S100000x16, .f32⟩
  | .hbm, ⟨75, _⟩ => ⟨S1x16x1, .f32⟩
  | .hbm, ⟨76, _⟩ => ⟨S16x1, .f32⟩
  | .hbm, ⟨77, _⟩ => ⟨S100000x1, .f32⟩
  | .hbm, ⟨78, _⟩ => ⟨S_, .i32⟩
  | .hbm, ⟨79, _⟩ => ⟨S6400000, .i32⟩
  | .hbm, ⟨80, _⟩ => ⟨S6400000, .i1⟩
  | .hbm, ⟨81, _⟩ => ⟨S_, .i32⟩
  | .hbm, ⟨82, _⟩ => ⟨S6400000, .i32⟩
  | .hbm, ⟨83, _⟩ => ⟨S6400000, .i32⟩
  | .hbm, ⟨84, _⟩ => ⟨S6400000, .i32⟩
  | .hbm, ⟨85, _⟩ => ⟨S6400000x1, .i32⟩
  | .hbm, ⟨86, _⟩ => ⟨S6400000x16, .f32⟩
  | .hbm, ⟨87, _⟩ => ⟨S6400000x1, .f32⟩
  | .hbm, ⟨88, _⟩ => ⟨S6400000x16, .f32⟩
  | .hbm, ⟨89, _⟩ => ⟨S6400000x16, .f32⟩
  | .hbm, ⟨90, _⟩ => ⟨S_, .f32⟩
  | .hbm, ⟨91, _⟩ => ⟨S100000x16, .f32⟩
  | .hbm, ⟨92, _⟩ => ⟨S6400000x1, .i32⟩
  | .hbm, ⟨93, _⟩ => ⟨S100000x16, .f32⟩
  | .hbm, ⟨94, _⟩ => ⟨S1x16x1, .f32⟩
  | .hbm, ⟨95, _⟩ => ⟨S16x1, .f32⟩
  | .hbm, ⟨96, _⟩ => ⟨S100000x1, .f32⟩
  | .hbm, ⟨97, _⟩ => ⟨S100000x1, .f32⟩
  | .hbm, ⟨98, _⟩ => ⟨S1x1, .f32⟩
  | .hbm, ⟨99, _⟩ => ⟨S100000x1, .f32⟩
  | .hbm, ⟨100, _⟩ => ⟨S100000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call1_cst : Ref sig .tc := ⟨.hbm, 72, rfl⟩
abbrev main_call1_v0 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S100000 : S_.BroadcastsInDim S100000 (![] : Fin 0 → Fin S100000.rank)
  bcast_S6400000_S6400000x1_0 : S6400000.BroadcastsInDim S6400000x1 (![0] : Fin 1 → Fin S6400000x1.rank)
  slices_S2x1x16_S1x1x16_0_0_0 : S2x1x16.Slices ![0, 0, 0] S1x1x16
  shapeCasts_S1x1x16_S1x16 : S1x1x16.ShapeCasts S1x16
  bcast_S_S100000x1 : S_.BroadcastsInDim S100000x1 (![] : Fin 0 → Fin S100000x1.rank)
  slices_S2x1x16_S1x1x16_1_0_0 : S2x1x16.Slices ![1, 0, 0] S1x1x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  slices_S2x16x1_S1x16x1_0_0_0 : S2x16x1.Slices ![0, 0, 0] S1x16x1
  shapeCasts_S1x16x1_S16x1 : S1x16x1.ShapeCasts S16x1
  bcast_S6400000x1_S6400000x16_0_1 : S6400000x1.BroadcastsInDim S6400000x16 (![0, 1] : Fin 2 → Fin S6400000x16.rank)
  slices_S2x16x1_S1x16x1_1_0_0 : S2x16x1.Slices ![1, 0, 0] S1x16x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S6400000x1_S6400000_n_0_0_1_wf : ScatterDims.WF S100000 S6400000x1 S6400000 [] [0] [0] 1
  gather_S100000_S6400000x1_S6400000_n_0_n_n_0_1_1_wf : GatherDims.WF S100000 S6400000x1 S6400000 [] [0] [] [0] [] 1 ![1]
  dot_S100000x1_S1x16_S100000x16_1_0_0_1_n_n_wf : DotDims.WF S100000x1 S1x16 S100000x16 [1] [0] [0] [1] [] []
  gather_S100000x1_S6400000x1_S6400000x1_1_0_n_n_0_1_11_wf : GatherDims.WF S100000x1 S6400000x1 S6400000x1 [1] [0] [] [0] [] 1 ![1, 1]
  scatter_S100000x1_S6400000x1_S6400000x1_1_0_0_1_wf : ScatterDims.WF S100000x1 S6400000x1 S6400000x1 [1] [0] [0] 1
  dot_S100000x16_S16x1_S100000x1_1_0_0_1_n_n_wf : DotDims.WF S100000x16 S16x1 S100000x1 [1] [0] [0] [1] [] []
  gather_S100000x16_S6400000x1_S6400000x16_1_0_n_n_0_1_116_wf : GatherDims.WF S100000x16 S6400000x1 S6400000x16 [1] [0] [] [0] [] 1 ![1, 16]
  scatter_S100000x16_S6400000x1_S6400000x16_1_0_0_1_wf : ScatterDims.WF S100000x16 S6400000x1 S6400000x16 [1] [0] [0] 1

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def gather_S100000x1_S6400000x1_S6400000x1_1_0_n_n_0_1_11 : GatherDims S100000x1 S6400000x1 S6400000x1 where
  offsetDims := [1]
  collapsedSliceDims := [0]
  operandBatchingDims := []
  startIndicesBatchingDims := []
  startIndexMap := [0]
  indexVectorDim := 1
  sliceSizes := ![1, 1]
  wf := gather_S100000x1_S6400000x1_S6400000x1_1_0_n_n_0_1_11_wf
def scatter_S100000x1_S6400000x1_S6400000x1_1_0_0_1 : ScatterDims S100000x1 S6400000x1 S6400000x1 where
  updateWindowDims := [1]
  insertedWindowDims := [0]
  scatterDimsToOperandDims := [0]
  indexVectorDim := 1
  wf := scatter_S100000x1_S6400000x1_S6400000x1_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x16_S6400000x1_S6400000x16_1_0_n_n_0_1_116 : GatherDims S100000x16 S6400000x1 S6400000x16 where
  offsetDims := [1]
  collapsedSliceDims := [0]
  operandBatchingDims := []
  startIndicesBatchingDims := []
  startIndexMap := [0]
  indexVectorDim := 1
  sliceSizes := ![1, 16]
  wf := gather_S100000x16_S6400000x1_S6400000x16_1_0_n_n_0_1_116_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf

class Facts : Prop extends Facts₀ where

variable [Facts]
-- ==== Proof.Spec.lean ====
/-
  The mathematics of one Chebyshev layer of order two, stated once for both programs.

  A layer takes the node features `x : [N, A]`, their propagation `tx = L̂ x : [N, A]` (computed on the host by
  both programs with the same operations, and kept opaque here), two weight matrices `w0 w1 : [A, B]` and a bias
  `b : [B]`, and returns, at row `p` and column `q`,

      (Σ_k x[p,k]·w0[k,q]  +  Σ_k tx[p,k]·w1[k,q])  +  b[q]

  on the extended reals. The sums run over the `A` input channels; the grouping is the one both programs use, so no
  law of the extended reals beyond reading each operation at an index is needed, and finiteness of the inputs is
  never used. The first layer follows it by a rectified linear unit, `max · 0`.
-/
import Idealize.ShloMosaic.PureOps.Ideal
import Idealize.ShloMosaic.Lib.ValueIdx

noncomputable section

namespace Cert.Cheb

open Idealize.ShloMosaic Idealize.ShloMosaic.ValueIdx

/-- The combine of one layer at row `p`, column `q`: the two matrix products summed, then the bias. -/
def combineAt {N A B : Nat} (x tx : (⟨2, ![N, A]⟩ : Shape).Idx → EReal) (w0 w1 : (⟨2, ![A, B]⟩ : Shape).Idx → EReal)
    (b : (⟨1, ![B]⟩ : Shape).Idx → EReal) (p : Fin N) (q : Fin B) : EReal :=
  ((∑ k : Fin A, x (ix2 p k) * w0 (ix2 k q)) + (∑ k : Fin A, tx (ix2 p k) * w1 (ix2 k q))) + b (ix1 q)

/-- The combine as an array `[N, B]`. -/
def combine {N A B : Nat} (x tx : (⟨2, ![N, A]⟩ : Shape).Idx → EReal) (w0 w1 : (⟨2, ![A, B]⟩ : Shape).Idx → EReal)
    (b : (⟨1, ![B]⟩ : Shape).Idx → EReal) : (⟨2, ![N, B]⟩ : Shape).Idx → EReal :=
  fun i => combineAt x tx w0 w1 b (i 0) (i 1)

/-- The combine followed by the rectifier: `max · 0`, the zero being the f32 word of `0.0`. -/
def combineRelu {N A B : Nat} (x tx : (⟨2, ![N, A]⟩ : Shape).Idx → EReal) (w0 w1 : (⟨2, ![A, B]⟩ : Shape).Idx → EReal)
    (b : (⟨1, ![B]⟩ : Shape).Idx → EReal) : (⟨2, ![N, B]⟩ : Shape).Idx → EReal :=
  fun i => max (combineAt x tx w0 w1 b (i 0) (i 1)) (Ideal.ofBits .f32 0x00000000#32)

theorem combine_ix2 {N A B : Nat} (x tx : (⟨2, ![N, A]⟩ : Shape).Idx → EReal) (w0 w1 : (⟨2, ![A, B]⟩ : Shape).Idx → EReal)
    (b : (⟨1, ![B]⟩ : Shape).Idx → EReal) (p : Fin N) (q : Fin B) :
    combine x tx w0 w1 b (ix2 p q) = combineAt x tx w0 w1 b p q := rfl

theorem combineRelu_ix2 {N A B : Nat} (x tx : (⟨2, ![N, A]⟩ : Shape).Idx → EReal) (w0 w1 : (⟨2, ![A, B]⟩ : Shape).Idx → EReal)
    (b : (⟨1, ![B]⟩ : Shape).Idx → EReal) (p : Fin N) (q : Fin B) :
    combineRelu x tx w0 w1 b (ix2 p q) = max (combineAt x tx w0 w1 b p q) (Ideal.ofBits .f32 0x00000000#32) := rfl

/-- A block of rows of the combine is the combine of the blocks of rows: row `p` of the block that starts at row
    `o` is row `o + p` of the array, and the combine at a row reads only that row of `x` and `tx`. -/
theorem combineAt_rows {N M A B : Nat} (X TX : (⟨2, ![N, A]⟩ : Shape).Idx → EReal) (x tx : (⟨2, ![M, A]⟩ : Shape).Idx → EReal)
    (w0 w1 : (⟨2, ![A, B]⟩ : Shape).Idx → EReal) (b : (⟨1, ![B]⟩ : Shape).Idx → EReal) (p : Fin M) (P : Fin N) (q : Fin B)
    (hx : ∀ k : Fin A, x (ix2 p k) = X (ix2 P k)) (htx : ∀ k : Fin A, tx (ix2 p k) = TX (ix2 P k)) :
    combineAt x tx w0 w1 b p q = combineAt X TX w0 w1 b P q := by
  unfold combineAt
  have e1 : (∑ k : Fin A, x (ix2 p k) * w0 (ix2 k q)) = ∑ k : Fin A, X (ix2 P k) * w0 (ix2 k q) :=
    Finset.sum_congr rfl fun k _ => by rw [hx k]
  have e2 : (∑ k : Fin A, tx (ix2 p k) * w1 (ix2 k q)) = ∑ k : Fin A, TX (ix2 P k) * w1 (ix2 k q) :=
    Finset.sum_congr rfl fun k _ => by rw [htx k]
  rw [e1, e2]

end Cert.Cheb

end
-- ==== Proof.RefSide.lean ====
/-
  The reference, read as the two layers of the specification.

  The reference computes, from the node features `x`, the edge list `e`, and the two layers' weights and biases:
  the edge weights `w(e)` (degrees by a scatter-add of ones, their inverse square roots where positive, gathered at
  both ends of each edge, multiplied and negated); the propagation `L̂ v` of a feature array `v` (gather `v` at the
  edges' sources, scale by `w`, scatter-add at the edges' targets); and per layer two matrix products, their sum, the
  bias, and after the first layer the rectifier. The propagation is a function of `v` and `e` alone and is named
  here (`propagate1` on one channel, `propagate16` on sixteen) without being opened: the kernel's host program
  applies the same operations, so only the VALUES fed to it have to agree. The matrix products, read at an index,
  are sums over the contracted channel, and the layers are `Cert.Cheb.combineRelu` and `Cert.Cheb.combine`.
-/
import proofs.«167895_j70050916598068_2_alg».proof.Proof.RefReadGen
import proofs.«167895_j70050916598068_2_alg».proof.Proof.Spec

noncomputable section

namespace Cert.ReferenceIdeal.Bridge

open Cert.ReferenceIdeal Cert.ReferenceIdeal.ReadP Cert.Cheb Idealize.ShloMosaic Idealize.ShloMosaic.ValueIdx

variable {F : FTy → Type} [FloatOps F]

/-- The propagation `L̂ x` of one-channel features: gather at the edges' sources, scale by the edge weights,
    scatter-add into zeros at the edges' targets. -/
def propagate1 (x : (⟨S100000x1, .f32⟩ : BufTy).Contents (Elt F)) (e : (⟨S2x6400000, .i32⟩ : BufTy).Contents (Elt F)) : (⟨S100000x1, .f32⟩ : BufTy).Contents (Elt F) :=
  Host.scatterAdd scatter_S100000x1_S6400000x1_S6400000x1_1_0_0_1 (val_main_v42 (F := F)) (val_main_v43 (F := F) e)
    (mulf (Host.gather gather_S100000x1_S6400000x1_S6400000x1_1_0_n_n_0_1_11 x (val_main_v38 (F := F) e)) (val_main_v40 (F := F) e))

/-- The propagation `L̂ h` of sixteen-channel features, the edge weight repeated across the channels. -/
def propagate16 (h : (⟨S100000x16, .f32⟩ : BufTy).Contents (Elt F)) (e : (⟨S2x6400000, .i32⟩ : BufTy).Contents (Elt F)) : (⟨S100000x16, .f32⟩ : BufTy).Contents (Elt F) :=
  Host.scatterAdd scatter_S100000x16_S6400000x1_S6400000x16_1_0_0_1 (val_main_v66 (F := F)) (val_main_v67 (F := F) e)
    (mulf (Host.gather gather_S100000x16_S6400000x1_S6400000x16_1_0_n_n_0_1_116 h (val_main_v61 (F := F) e)) (val_main_v64 (F := F) e))

theorem v44_eq (x0 : (⟨S100000x1, .f32⟩ : BufTy).Contents (Elt F)) (x1 : (⟨S2x6400000, .i32⟩ : BufTy).Contents (Elt F)) :
    val_main_v44 (F := F) x0 x1 = propagate1 x0 x1 := rfl

theorem v68_eq (x0 : (⟨S100000x1, .f32⟩ : BufTy).Contents (Elt F)) (x1 : (⟨S2x6400000, .i32⟩ : BufTy).Contents (Elt F)) (x2 : (⟨S2x1x16, .f32⟩ : BufTy).Contents (Elt F)) (x3 : (⟨S16, .f32⟩ : BufTy).Contents (Elt F)) :
    val_main_v68 (F := F) x0 x1 x2 x3 = propagate16 (val_main_v52 (F := F) x0 x1 x2 x3) x1 := rfl

/-- THE HIDDEN LAYER: the reference's rectified first layer is the specification's, of `x`, its propagation, the two
    slices of the first weight array and the first bias. At an index: each `dot_general` is the sum over the one
    contracted channel, the bias `[16]` is broadcast along the rows, the rectifier is `max · 0`. -/
theorem hidden_eq (x0 : (⟨S100000x1, .f32⟩ : BufTy).Contents (Elt Ideal)) (x1 : (⟨S2x6400000, .i32⟩ : BufTy).Contents (Elt Ideal)) (x2 : (⟨S2x1x16, .f32⟩ : BufTy).Contents (Elt Ideal)) (x3 : (⟨S16, .f32⟩ : BufTy).Contents (Elt Ideal)) :
    val_main_v52 (F := Ideal) x0 x1 x2 x3
      = combineRelu x0 (propagate1 (F := Ideal) x0 x1) (val_main_v31 (F := Ideal) x2) (val_main_v46 (F := Ideal) x2) x3 := by
  funext i
  obtain ⟨P, Q, rfl⟩ : ∃ (P : Fin 100000) (Q : Fin 16), i = ix2 P Q := ⟨i 0, i 1, eq_ix2 i⟩
  have l32 : ∀ k : Fin 1, lidx_main_v32 (ix2 P Q) k = ix2 P k := fun k => funext fun a => Fin.ext (by
    match a with
    | ⟨0, _⟩ => rfl
    | ⟨1, _⟩ => rfl)
  have r32 : ∀ k : Fin 1, ridx_main_v32 (ix2 P Q) k = ix2 k Q := fun k => funext fun a => Fin.ext (by
    match a with
    | ⟨0, _⟩ => rfl
    | ⟨1, _⟩ => rfl)
  have l47 : ∀ k : Fin 1, lidx_main_v47 (ix2 P Q) k = ix2 P k := fun k => funext fun a => Fin.ext (by
    match a with
    | ⟨0, _⟩ => rfl
    | ⟨1, _⟩ => rfl)
  have r47 : ∀ k : Fin 1, ridx_main_v47 (ix2 P Q) k = ix2 k Q := fun k => funext fun a => Fin.ext (by
    match a with
    | ⟨0, _⟩ => rfl
    | ⟨1, _⟩ => rfl)
  have b50 : idx_main_v49 (idx_main_v50 (ix2 P Q)) = ix1 Q := funext fun a => Fin.ext (by
    match a with
    | ⟨0, _⟩ => rfl)
  rw [val_main_v52_apply, val_main_v51_apply, val_main_v48_apply, val_main_v32_apply, val_main_v47_apply,
    val_main_v50_apply, val_main_v49_apply, val_main_call1_v0_apply, val_main_call1_cst_apply, v44_eq]
  simp only [l32, r32, l47, r47, b50]
  rfl

/-- THE OUTPUT LAYER: the reference's result is the specification's second layer of the hidden features `h`, their
    propagation, the two slices of the second weight array and the second bias. -/
theorem output_eq (x0 : (⟨S100000x1, .f32⟩ : BufTy).Contents (Elt Ideal)) (x1 : (⟨S2x6400000, .i32⟩ : BufTy).Contents (Elt Ideal)) (x2 : (⟨S2x1x16, .f32⟩ : BufTy).Contents (Elt Ideal)) (x3 : (⟨S16, .f32⟩ : BufTy).Contents (Elt Ideal))
    (x4 : (⟨S2x16x1, .f32⟩ : BufTy).Contents (Elt Ideal)) (x5 : (⟨S1, .f32⟩ : BufTy).Contents (Elt Ideal)) :
    val_main_v75 (F := Ideal) x0 x1 x2 x3 x4 x5
      = combine (val_main_v52 (F := Ideal) x0 x1 x2 x3) (propagate16 (F := Ideal) (val_main_v52 (F := Ideal) x0 x1 x2 x3) x1)
          (val_main_v54 (F := Ideal) x4) (val_main_v70 (F := Ideal) x4) x5 := by
  funext i
  obtain ⟨P, Q, rfl⟩ : ∃ (P : Fin 100000) (Q : Fin 1), i = ix2 P Q := ⟨i 0, i 1, eq_ix2 i⟩
  have l55 : ∀ k : Fin 16, lidx_main_v55 (ix2 P Q) k = ix2 P k := fun k => funext fun a => Fin.ext (by
    match a with
    | ⟨0, _⟩ => rfl
    | ⟨1, _⟩ => rfl)
  have r55 : ∀ k : Fin 16, ridx_main_v55 (ix2 P Q) k = ix2 k Q := fun k => funext fun a => Fin.ext (by
    match a with
    | ⟨0, _⟩ => rfl
    | ⟨1, _⟩ => rfl)
  have l71 : ∀ k : Fin 16, lidx_main_v71 (ix2 P Q) k = ix2 P k := fun k => funext fun a => Fin.ext (by
    match a with
    | ⟨0, _⟩ => rfl
    | ⟨1, _⟩ => rfl)
  have r71 : ∀ k : Fin 16, ridx_main_v71 (ix2 P Q) k = ix2 k Q := fun k => funext fun a => Fin.ext (by
    match a with
    | ⟨0, _⟩ => rfl
    | ⟨1, _⟩ => rfl)
  have b74 : idx_main_v73 (idx_main_v74 (ix2 P Q)) = ix1 Q := funext fun a => Fin.ext (by
    match a with
    | ⟨0, _⟩ => show 0 = Q.val; omega)
  rw [val_main_v75_apply, val_main_v72_apply, val_main_v55_apply, val_main_v71_apply, val_main_v74_apply,
    val_main_v73_apply, v68_eq]
  simp only [l55, r55, l71, r71, b74]
  rfl

end Cert.ReferenceIdeal.Bridge

end
-- ==== Proof.KRun.lean ====
/-
  The idealized kernel's run with its result named.

  The program is two pipelined regions among stretches of host operations. Its buffer contents at every boundary
  are a fold from the launch memory: host operations applied in order, and at a region's exit the region's arrays
  replaced by what its write-backs leave. Every weakly fair execution terminates, without a fault, in a state that
  holds, in every unscoped buffer, the last boundary's contents; so the result buffer holds the last boundary's
  contents at the result's reference, and the six arguments hold what they were launched with.
-/
import proofs.«167895_j70050916598068_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v64) = W6 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v64 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Run

end
-- ==== Proof.KPay.lean ====
/-
  What one grid point of each kernel stores, read at an index of its block.

  Both kernel bodies load a block of 10000 rows of the node features `x` and of their propagation `tx`, the two whole
  weight matrices and the whole bias, and store one value: the two matrix products (each into a zero accumulator,
  the operands first rounded to bf16 — the identity on the extended reals), their sum, the bias added along the
  rows, and, in the first kernel only, the maximum with zero. Read at row `p` and column `q` of the block this is
  the layer's combine at that row and column (`Cert.Cheb.combineAt`) of the loaded blocks.
-/
import proofs.«167895_j70050916598068_2_alg».proof.Proof.Gen.KernelIdeal.Skeleton
import proofs.«167895_j70050916598068_2_alg».proof.Proof.Spec
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Cheb

/-! ## The first kernel's product: [10000, 1] × [1, 16] -/

theorem mm0_lhs0 (i : S10000x16.Idx) (k : dot_S10000x1_S1x16_S10000x16_1_0_0_1_n_n.contr.Idx) : (dot_S10000x1_S1x16_S10000x16_1_0_0_1_n_n.lhsIdx i k 0).val = (i 0).val := by
  unfold DotDims.lhsIdx
  rw [dif_neg (show ¬(0 : Fin S10000x1.rank) ∈ dot_S10000x1_S1x16_S10000x16_1_0_0_1_n_n.lhsBatch by decide), dif_pos (show (0 : Fin S10000x1.rank) ∈ dot_S10000x1_S1x16_S10000x16_1_0_0_1_n_n.lhsNonContracting by decide)]
  rfl
theorem mm0_lhs1 (i : S10000x16.Idx) (k : dot_S10000x1_S1x16_S10000x16_1_0_0_1_n_n.contr.Idx) : (dot_S10000x1_S1x16_S10000x16_1_0_0_1_n_n.lhsIdx i k 1).val = (k ⟨0, by decide⟩).val :=
  dot_S10000x1_S1x16_S10000x16_1_0_0_1_n_n.lhsIdx_val_of_single rfl i k
theorem mm0_rhs0 (i : S10000x16.Idx) (k : dot_S10000x1_S1x16_S10000x16_1_0_0_1_n_n.contr.Idx) : (dot_S10000x1_S1x16_S10000x16_1_0_0_1_n_n.rhsIdx i k 0).val = (k ⟨0, by decide⟩).val :=
  dot_S10000x1_S1x16_S10000x16_1_0_0_1_n_n.rhsIdx_val_of_single rfl i k
theorem mm0_rhs1 (i : S10000x16.Idx) (k : dot_S10000x1_S1x16_S10000x16_1_0_0_1_n_n.contr.Idx) : (dot_S10000x1_S1x16_S10000x16_1_0_0_1_n_n.rhsIdx i k 1).val = (i 1).val := by
  unfold DotDims.rhsIdx
  rw [dif_neg (show ¬(1 : Fin S1x16.rank) ∈ dot_S10000x1_S1x16_S10000x16_1_0_0_1_n_n.rhsBatch by decide), dif_pos (show (1 : Fin S1x16.rank) ∈ dot_S10000x1_S1x16_S10000x16_1_0_0_1_n_n.rhsNonContracting by decide)]
  rfl

/-- The block's matrix product into a zero accumulator, read at row `p`, column `q`: the sum over the 1 contracted
    channels of the products of row `p` of the left factor with column `q` of the right one. -/
theorem mm0_apply (l : FVec Ideal S10000x1 .bf16) (r : FVec Ideal S1x16 .bf16) (p : Fin 10000) (q : Fin 16) :
    matmul dot_S10000x1_S1x16_S10000x16_1_0_0_1_n_n none l r (constant S10000x16 .f32 0x00000000#32) (ix2 p q)
      = ∑ k : Fin 1, l (ix2 p k) * r (ix2 k q) := by
  simp only [matmul]
  rw [Ideal.matmul_constant_zero_apply, ← Equiv.sum_comp (contrEquiv1 dot_S10000x1_S1x16_S10000x16_1_0_0_1_n_n 1 rfl rfl).symm]
  refine Finset.sum_congr rfl fun k _ => ?_
  have hk := contrEquiv1_symm_val dot_S10000x1_S1x16_S10000x16_1_0_0_1_n_n 1 rfl rfl k
  have el : dot_S10000x1_S1x16_S10000x16_1_0_0_1_n_n.lhsIdx (ix2 p q) ((contrEquiv1 dot_S10000x1_S1x16_S10000x16_1_0_0_1_n_n 1 rfl rfl).symm k) = ix2 p k := funext fun a => Fin.ext (by
    match a with
    | ⟨0, _⟩ => exact mm0_lhs0 _ _
    | ⟨1, _⟩ => exact (mm0_lhs1 _ _).trans hk)
  have er : dot_S10000x1_S1x16_S10000x16_1_0_0_1_n_n.rhsIdx (ix2 p q) ((contrEquiv1 dot_S10000x1_S1x16_S10000x16_1_0_0_1_n_n 1 rfl rfl).symm k) = ix2 k q := funext fun a => Fin.ext (by
    match a with
    | ⟨0, _⟩ => exact (mm0_rhs0 _ _).trans hk
    | ⟨1, _⟩ => exact mm0_rhs1 _ _)
  rw [el, er]

/-- The first kernel's stored value at row `p`, column `q` of the block: the combine of the loaded blocks there,
    rectified. The casts of a shape to itself are the identity, the rounding to bf16 is the identity on the extended
    reals, the bias `[16]` is laid out as a row `[1, 16]` and repeated down the 10000 rows. -/
theorem pay0_apply (x0 x1 : Vec Ideal S10000x1 .f32) (x2 x3 : Vec Ideal S1x16 .f32) (x4 : Vec Ideal S16 .f32) (p : Fin 10000) (q : Fin 16) :
    k0_pay1 x0 x1 x2 x3 x4 (ix2 p q) = max (combineAt x0 x1 x2 x3 x4 p q) (Ideal.ofBits .f32 0x00000000#32) := by
  unfold k0_pay1
  rw [shapeCast_self x2, shapeCast_self x1, shapeCast_self x3]
  rw [maximumf_apply, addf_apply, addf_apply, broadcast_apply, mm0_apply, mm0_apply, broadcastTo_1b_ab_apply, shapeCast_a_1a_apply]
  rfl

/-! ## The second kernel's product: [10000, 16] × [16, 1] -/

theorem mm1_lhs0 (i : S10000x1.Idx) (k : dot_S10000x16_S16x1_S10000x1_1_0_0_1_n_n.contr.Idx) : (dot_S10000x16_S16x1_S10000x1_1_0_0_1_n_n.lhsIdx i k 0).val = (i 0).val := by
  unfold DotDims.lhsIdx
  rw [dif_neg (show ¬(0 : Fin S10000x16.rank) ∈ dot_S10000x16_S16x1_S10000x1_1_0_0_1_n_n.lhsBatch by decide), dif_pos (show (0 : Fin S10000x16.rank) ∈ dot_S10000x16_S16x1_S10000x1_1_0_0_1_n_n.lhsNonContracting by decide)]
  rfl
theorem mm1_lhs1 (i : S10000x1.Idx) (k : dot_S10000x16_S16x1_S10000x1_1_0_0_1_n_n.contr.Idx) : (dot_S10000x16_S16x1_S10000x1_1_0_0_1_n_n.lhsIdx i k 1).val = (k ⟨0, by decide⟩).val :=
  dot_S10000x16_S16x1_S10000x1_1_0_0_1_n_n.lhsIdx_val_of_single rfl i k
theorem mm1_rhs0 (i : S10000x1.Idx) (k : dot_S10000x16_S16x1_S10000x1_1_0_0_1_n_n.contr.Idx) : (dot_S10000x16_S16x1_S10000x1_1_0_0_1_n_n.rhsIdx i k 0).val = (k ⟨0, by decide⟩).val :=
  dot_S10000x16_S16x1_S10000x1_1_0_0_1_n_n.rhsIdx_val_of_single rfl i k
theorem mm1_rhs1 (i : S10000x1.Idx) (k : dot_S10000x16_S16x1_S10000x1_1_0_0_1_n_n.contr.Idx) : (dot_S10000x16_S16x1_S10000x1_1_0_0_1_n_n.rhsIdx i k 1).val = (i 1).val := by
  unfold DotDims.rhsIdx
  rw [dif_neg (show ¬(1 : Fin S16x1.rank) ∈ dot_S10000x16_S16x1_S10000x1_1_0_0_1_n_n.rhsBatch by decide), dif_pos (show (1 : Fin S16x1.rank) ∈ dot_S10000x16_S16x1_S10000x1_1_0_0_1_n_n.rhsNonContracting by decide)]
  rfl

/-- The block's matrix product into a zero accumulator, read at row `p`, column `q`: the sum over the 16 contracted
    channels of the products of row `p` of the left factor with column `q` of the right one. -/
theorem mm1_apply (l : FVec Ideal S10000x16 .bf16) (r : FVec Ideal S16x1 .bf16) (p : Fin 10000) (q : Fin 1) :
    matmul dot_S10000x16_S16x1_S10000x1_1_0_0_1_n_n none l r (constant S10000x1 .f32 0x00000000#32) (ix2 p q)
      = ∑ k : Fin 16, l (ix2 p k) * r (ix2 k q) := by
  simp only [matmul]
  rw [Ideal.matmul_constant_zero_apply, ← Equiv.sum_comp (contrEquiv1 dot_S10000x16_S16x1_S10000x1_1_0_0_1_n_n 16 rfl rfl).symm]
  refine Finset.sum_congr rfl fun k _ => ?_
  have hk := contrEquiv1_symm_val dot_S10000x16_S16x1_S10000x1_1_0_0_1_n_n 16 rfl rfl k
  have el : dot_S10000x16_S16x1_S10000x1_1_0_0_1_n_n.lhsIdx (ix2 p q) ((contrEquiv1 dot_S10000x16_S16x1_S10000x1_1_0_0_1_n_n 16 rfl rfl).symm k) = ix2 p k := funext fun a => Fin.ext (by
    match a with
    | ⟨0, _⟩ => exact mm1_lhs0 _ _
    | ⟨1, _⟩ => exact (mm1_lhs1 _ _).trans hk)
  have er : dot_S10000x16_S16x1_S10000x1_1_0_0_1_n_n.rhsIdx (ix2 p q) ((contrEquiv1 dot_S10000x16_S16x1_S10000x1_1_0_0_1_n_n 16 rfl rfl).symm k) = ix2 k q := funext fun a => Fin.ext (by
    match a with
    | ⟨0, _⟩ => exact (mm1_rhs0 _ _).trans hk
    | ⟨1, _⟩ => exact mm1_rhs1 _ _)
  rw [el, er]

/-- The second kernel's stored value at row `p`, column `q` of the block: the combine of the loaded blocks there
    (no rectifier). The bias `[1]` is laid out as `[1, 1]` and repeated down the 10000 rows. -/
theorem pay1_apply (x0 x1 : Vec Ideal S10000x16 .f32) (x2 x3 : Vec Ideal S16x1 .f32) (x4 : Vec Ideal S1 .f32) (p : Fin 10000) (q : Fin 1) :
    k1_pay1 x0 x1 x2 x3 x4 (ix2 p q) = combineAt x0 x1 x2 x3 x4 p q := by
  unfold k1_pay1
  rw [shapeCast_self x0, shapeCast_self x1, shapeCast_self x2, shapeCast_self x3]
  rw [addf_apply, addf_apply, mm1_apply, mm1_apply, broadcastTo_1b_ab_apply, shapeCast_a_1a_apply]
  rfl

end Cert.KernelIdeal.Pay

end
-- ==== Proof.KVal0.lean ====
/-
  From blocks to the array, for kernel 0: the output array after the pipeline has run is one function of the
  arrays the region finds on entry — the layer's combine, rectified — index by index. Each of the ten grid points writes
  back a block of 10000 rows; the block at point `t` is rows `10000·t …` of that function, because the node-feature
  windows move with the output's window and the weight and bias windows stay put; and the ten blocks cover the
  100000 rows.
-/
import proofs.«167895_j70050916598068_2_alg».proof.Proof.Gen.KernelIdeal.Frame
import proofs.«167895_j70050916598068_2_alg».proof.Proof.KPay
import Idealize.ShloMosaic.Lib.Pipeline.Value

set_option maxRecDepth 16384

noncomputable section

namespace Cert.KernelIdeal.Blocks0

open Cert.KernelIdeal Cert.KernelIdeal.Gen Cert.KernelIdeal.Pay Cert.Cheb
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps of the six windows, decided once over the ten grid points: the node-feature windows and
    the output move one block of rows per point; the weights and the bias stay at block zero. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- ONE GRID POINT, over variables: if the loaded blocks `x0 x1` are the rows `o …` of the arrays `X TX` (read
    through embeddings `e0 e1` that shift the row by `o` and keep the column), and the loaded weights and bias are
    the whole arrays `W0 W1 Bi` (read through embeddings that keep every coordinate), then the stored value at `y` is
    the layer's function of the whole arrays at the index `i` that sits `o` rows below `y`. -/
theorem point0 (X TX : S100000x1.Idx → EReal) (W0 W1 : S1x16.Idx → EReal) (Bi : S16.Idx → EReal)
    (x0 x1 : Vec Ideal S10000x1 .f32) (x2 x3 : Vec Ideal S1x16 .f32) (x4 : Vec Ideal S16 .f32) (o : Nat)
    (e0 e1 : S10000x1.Idx → S100000x1.Idx) (e2 e3 : S1x16.Idx → S1x16.Idx) (e4 : S16.Idx → S16.Idx)
    (hx0 : ∀ y, x0 y = X (e0 y)) (hx1 : ∀ y, x1 y = TX (e1 y)) (hx2 : ∀ y, x2 y = W0 (e2 y))
    (hx3 : ∀ y, x3 y = W1 (e3 y)) (hx4 : ∀ y, x4 y = Bi (e4 y))
    (he0 : ∀ y, (e0 y 0).val = o + (y 0).val ∧ (e0 y 1).val = (y 1).val)
    (he1 : ∀ y, (e1 y 0).val = o + (y 0).val ∧ (e1 y 1).val = (y 1).val)
    (he2 : ∀ y, (e2 y 0).val = (y 0).val ∧ (e2 y 1).val = (y 1).val)
    (he3 : ∀ y, (e3 y 0).val = (y 0).val ∧ (e3 y 1).val = (y 1).val)
    (he4 : ∀ y, (e4 y 0).val = (y 0).val)
    (y : S10000x16.Idx) (i : S100000x16.Idx) (hi : (i 0).val = o + (y 0).val ∧ (i 1).val = (y 1).val) :
    k0_pay1 x0 x1 x2 x3 x4 y = combineRelu X TX W0 W1 Bi i := by
  have e2id : ∀ y, e2 y = y := fun y => funext fun a => Fin.ext (by
    match a with
    | ⟨0, _⟩ => exact (he2 y).1
    | ⟨1, _⟩ => exact (he2 y).2)
  have e3id : ∀ y, e3 y = y := fun y => funext fun a => Fin.ext (by
    match a with
    | ⟨0, _⟩ => exact (he3 y).1
    | ⟨1, _⟩ => exact (he3 y).2)
  have e4id : ∀ y, e4 y = y := fun y => funext fun a => Fin.ext (by
    match a with
    | ⟨0, _⟩ => exact he4 y)
  have h2 : x2 = W0 := funext fun y => (hx2 y).trans (congrArg W0 (e2id y))
  have h3 : x3 = W1 := funext fun y => (hx3 y).trans (congrArg W1 (e3id y))
  have h4 : x4 = Bi := funext fun y => (hx4 y).trans (congrArg Bi (e4id y))
  subst h2 h3 h4
  obtain ⟨p, q, rfl⟩ : ∃ (p : Fin 10000) (q : Fin 16), y = ix2 p q := ⟨y 0, y 1, eq_ix2 y⟩
  obtain ⟨P, Q, rfl⟩ : ∃ (P : Fin 100000) (Q : Fin 16), i = ix2 P Q := ⟨i 0, i 1, eq_ix2 i⟩
  have hP : P.val = o + p.val := hi.1
  have hQ : Q = q := Fin.ext hi.2
  subst hQ
  rw [pay0_apply, combineRelu_ix2]
  refine congrArg (fun z => max z (Ideal.ofBits .f32 0x00000000#32)) ?_
  refine combineAt_rows X TX x0 x1 x2 x3 x4 p P Q (fun k => ?_) (fun k => ?_)
  · rw [hx0]
    refine congrArg X (funext fun a => Fin.ext ?_)
    have h0 : (e0 (ix2 p k) 0).val = o + p.val := (he0 (ix2 p k)).1
    have h1 : (e0 (ix2 p k) 1).val = k.val := (he0 (ix2 p k)).2
    match a with
    | ⟨0, _⟩ => exact h0.trans hP.symm
    | ⟨1, _⟩ => exact h1
  · rw [hx1]
    refine congrArg TX (funext fun a => Fin.ext ?_)
    have h0 : (e1 (ix2 p k) 0).val = o + p.val := (he1 (ix2 p k)).1
    have h1 : (e1 (ix2 p k) 1).val = k.val := (he1 (ix2 p k)).2
    match a with
    | ⟨0, _⟩ => exact h0.trans hP.symm
    | ⟨1, _⟩ => exact h1

/-- WHAT POINT `t` WRITES BACK is block `t` of the layer's function of the arrays as the region finds them: the
    body's one store covers the staging buffer, its loads read the whole staged blocks, and a block's element sits at
    block index × block size + its coordinate inside the block. -/
theorem flushed0 (c : Dev nD) (t : Fin cfg0.N) :
    (dat0 V c).flushed 5 t = ((cfg0.win 5).blk t).view.read (Elt Ideal)
      (combineRelu (V c main_arg0) (V c main_v41) (V c main_v43) (V c main_v45) (V c main_arg3)) := by
  show (cfg0.win 5).cut (grid0.coords t) ((dat0 V c).after 5 t) = _
  rw [after0_5]
  unfold out0_5
  rw [View.canon_unit_zero hz2]
  simp only [View.ld_unit_zero (S := S10000x1) hz2, View.ld_unit_zero (S := S1x16) hz2, View.ld_unit_zero (S := S16) hz1]
  obtain ⟨a0, a1, b0, b1, c0, c1, d0, d1, f0, g0, g1⟩ := idx0 t
  funext j
  show k0_pay1 (iblk0 V c 0 t) (iblk0 V c 1 t) (iblk0 V c 2 t) (iblk0 V c 3 t) (iblk0 V c 4 t) j
    = combineRelu (V c main_arg0) (V c main_v41) (V c main_v43) (V c main_v45) (V c main_arg3) (((cfg0.win 5).blk t).view.emb j)
  refine point0 (V c main_arg0) (V c main_v41) (V c main_v43) (V c main_v45) (V c main_arg3)
    (iblk0 V c 0 t) (iblk0 V c 1 t) (iblk0 V c 2 t) (iblk0 V c 3 t) (iblk0 V c 4 t) (t.val * 10000)
    (fun y => ((cfg0.win 0).blk t).view.emb y) (fun y => ((cfg0.win 1).blk t).view.emb y)
    (fun y => ((cfg0.win 2).blk t).view.emb y) (fun y => ((cfg0.win 3).blk t).view.emb y)
    (fun y => ((cfg0.win 4).blk t).view.emb y)
    (fun y => rfl) (fun y => rfl) (fun y => rfl) (fun y => rfl) (fun y => rfl)
    (fun y => ⟨?_, ?_⟩) (fun y => ⟨?_, ?_⟩) (fun y => ⟨?_, ?_⟩) (fun y => ⟨?_, ?_⟩) (fun y => ?_)
    j (((cfg0.win 5).blk t).view.emb j) ⟨?_, ?_⟩
  · show win0_0.index t (0 : Fin 2) * 10000 + 1 * (y 0).val = t.val * 10000 + (y 0).val; omega
  · show win0_0.index t (1 : Fin 2) * 1 + 1 * (y 1).val = (y 1).val; omega
  · show win0_1.index t (0 : Fin 2) * 10000 + 1 * (y 0).val = t.val * 10000 + (y 0).val; omega
  · show win0_1.index t (1 : Fin 2) * 1 + 1 * (y 1).val = (y 1).val; omega
  · show win0_2.index t (0 : Fin 2) * 1 + 1 * (y 0).val = (y 0).val; omega
  · show win0_2.index t (1 : Fin 2) * 16 + 1 * (y 1).val = (y 1).val; omega
  · show win0_3.index t (0 : Fin 2) * 1 + 1 * (y 0).val = (y 0).val; omega
  · show win0_3.index t (1 : Fin 2) * 16 + 1 * (y 1).val = (y 1).val; omega
  · show win0_4.index t (0 : Fin 1) * 16 + 1 * (y 0).val = (y 0).val; omega
  · show win0_5.index t (0 : Fin 2) * 10000 + 1 * (j 0).val = t.val * 10000 + (j 0).val; omega
  · show win0_5.index t (1 : Fin 2) * 16 + 1 * (j 1).val = (j 1).val; omega

/-- An index of the output array is in point `t`'s block iff each coordinate is in the block's range on its axis. -/
theorem mem_blk0 (t : Fin cfg0.N) (i : S100000x16.Idx) :
    i ∈ ((cfg0.win 5).blk t).view.set ↔ ∀ a : Fin 2, win0_5.index t a * S10000x16.size a ≤ (i a).val ∧ (i a).val < win0_5.index t a * S10000x16.size a + S10000x16.size a := by
  show i ∈ ((View.whole main_v46).slice (win0_5.rect t)).set ↔ _
  rw [View.set_slice_whole, Rect.mem_set_unit]
  exact Iff.rfl

/-- THE COVER: row `r` of the output lies in the block of the point `r / 10000`; the ten blocks of 10000 rows fill
    the 100000 rows. -/
theorem cover0 (i : S100000x16.Idx) : ∃ t : Fin cfg0.N, (cfg0.win 5).flush t = true ∧ i ∈ ((cfg0.win 5).blk t).view.set := by
  have hi0 : (i 0).val < 100000 := (i 0).isLt
  have hi1 : (i 1).val < 16 := (i 1).isLt
  have hN : cfg0.N = 10 := N_0
  obtain ⟨t, ht⟩ : ∃ t : Fin cfg0.N, t.val = (i 0).val / 10000 := ⟨⟨(i 0).val / 10000, by rw [hN]; omega⟩, rfl⟩
  refine ⟨t, flush0_5 t, ?_⟩
  rw [mem_blk0]
  obtain ⟨a0, a1, b0, b1, c0, c1, d0, d1, f0, g0, g1⟩ := idx0 t
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 16 ≤ (i 1).val ∧ (i 1).val < win0_5.index t (1 : Fin 2) * 16 + 16; omega

/-- THE OUTPUT ARRAY after the region: the layer's function of the arrays as the region finds them. -/
theorem final0 (c : Dev nD) : (dat0 V c).arrAt 5 cfg0.N
    = combineRelu (V c main_arg0) (V c main_v41) (V c main_v43) (V c main_v45) (V c main_arg3) :=
  (dat0 V c).arrAt_eq_of_cover 5 _ (fun t _ => flushed0 V c t) cover0

end Cert.KernelIdeal.Blocks0

end
-- ==== Proof.KVal1.lean ====
/-
  From blocks to the array, for kernel 1: the output array after the pipeline has run is one function of the
  arrays the region finds on entry — the layer's combine — index by index. Each of the ten grid points writes
  back a block of 10000 rows; the block at point `t` is rows `10000·t …` of that function, because the node-feature
  windows move with the output's window and the weight and bias windows stay put; and the ten blocks cover the
  100000 rows.
-/
import proofs.«167895_j70050916598068_2_alg».proof.Proof.Gen.KernelIdeal.Frame
import proofs.«167895_j70050916598068_2_alg».proof.Proof.KPay
import Idealize.ShloMosaic.Lib.Pipeline.Value

set_option maxRecDepth 16384

noncomputable section

namespace Cert.KernelIdeal.Blocks1

open Cert.KernelIdeal Cert.KernelIdeal.Gen Cert.KernelIdeal.Pay Cert.Cheb
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps of the six windows, decided once over the ten grid points: the node-feature windows and
    the output move one block of rows per point; the weights and the bias stay at block zero. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- ONE GRID POINT, over variables: if the loaded blocks `x0 x1` are the rows `o …` of the arrays `X TX` (read
    through embeddings `e0 e1` that shift the row by `o` and keep the column), and the loaded weights and bias are
    the whole arrays `W0 W1 Bi` (read through embeddings that keep every coordinate), then the stored value at `y` is
    the layer's function of the whole arrays at the index `i` that sits `o` rows below `y`. -/
theorem point1 (X TX : S100000x16.Idx → EReal) (W0 W1 : S16x1.Idx → EReal) (Bi : S1.Idx → EReal)
    (x0 x1 : Vec Ideal S10000x16 .f32) (x2 x3 : Vec Ideal S16x1 .f32) (x4 : Vec Ideal S1 .f32) (o : Nat)
    (e0 e1 : S10000x16.Idx → S100000x16.Idx) (e2 e3 : S16x1.Idx → S16x1.Idx) (e4 : S1.Idx → S1.Idx)
    (hx0 : ∀ y, x0 y = X (e0 y)) (hx1 : ∀ y, x1 y = TX (e1 y)) (hx2 : ∀ y, x2 y = W0 (e2 y))
    (hx3 : ∀ y, x3 y = W1 (e3 y)) (hx4 : ∀ y, x4 y = Bi (e4 y))
    (he0 : ∀ y, (e0 y 0).val = o + (y 0).val ∧ (e0 y 1).val = (y 1).val)
    (he1 : ∀ y, (e1 y 0).val = o + (y 0).val ∧ (e1 y 1).val = (y 1).val)
    (he2 : ∀ y, (e2 y 0).val = (y 0).val ∧ (e2 y 1).val = (y 1).val)
    (he3 : ∀ y, (e3 y 0).val = (y 0).val ∧ (e3 y 1).val = (y 1).val)
    (he4 : ∀ y, (e4 y 0).val = (y 0).val)
    (y : S10000x1.Idx) (i : S100000x1.Idx) (hi : (i 0).val = o + (y 0).val ∧ (i 1).val = (y 1).val) :
    k1_pay1 x0 x1 x2 x3 x4 y = combine X TX W0 W1 Bi i := by
  have e2id : ∀ y, e2 y = y := fun y => funext fun a => Fin.ext (by
    match a with
    | ⟨0, _⟩ => exact (he2 y).1
    | ⟨1, _⟩ => exact (he2 y).2)
  have e3id : ∀ y, e3 y = y := fun y => funext fun a => Fin.ext (by
    match a with
    | ⟨0, _⟩ => exact (he3 y).1
    | ⟨1, _⟩ => exact (he3 y).2)
  have e4id : ∀ y, e4 y = y := fun y => funext fun a => Fin.ext (by
    match a with
    | ⟨0, _⟩ => exact he4 y)
  have h2 : x2 = W0 := funext fun y => (hx2 y).trans (congrArg W0 (e2id y))
  have h3 : x3 = W1 := funext fun y => (hx3 y).trans (congrArg W1 (e3id y))
  have h4 : x4 = Bi := funext fun y => (hx4 y).trans (congrArg Bi (e4id y))
  subst h2 h3 h4
  obtain ⟨p, q, rfl⟩ : ∃ (p : Fin 10000) (q : Fin 1), y = ix2 p q := ⟨y 0, y 1, eq_ix2 y⟩
  obtain ⟨P, Q, rfl⟩ : ∃ (P : Fin 100000) (Q : Fin 1), i = ix2 P Q := ⟨i 0, i 1, eq_ix2 i⟩
  have hP : P.val = o + p.val := hi.1
  have hQ : Q = q := Fin.ext hi.2
  subst hQ
  rw [pay1_apply, combine_ix2]

  refine combineAt_rows X TX x0 x1 x2 x3 x4 p P Q (fun k => ?_) (fun k => ?_)
  · rw [hx0]
    refine congrArg X (funext fun a => Fin.ext ?_)
    have h0 : (e0 (ix2 p k) 0).val = o + p.val := (he0 (ix2 p k)).1
    have h1 : (e0 (ix2 p k) 1).val = k.val := (he0 (ix2 p k)).2
    match a with
    | ⟨0, _⟩ => exact h0.trans hP.symm
    | ⟨1, _⟩ => exact h1
  · rw [hx1]
    refine congrArg TX (funext fun a => Fin.ext ?_)
    have h0 : (e1 (ix2 p k) 0).val = o + p.val := (he1 (ix2 p k)).1
    have h1 : (e1 (ix2 p k) 1).val = k.val := (he1 (ix2 p k)).2
    match a with
    | ⟨0, _⟩ => exact h0.trans hP.symm
    | ⟨1, _⟩ => exact h1

/-- WHAT POINT `t` WRITES BACK is block `t` of the layer's function of the arrays as the region finds them: the
    body's one store covers the staging buffer, its loads read the whole staged blocks, and a block's element sits at
    block index × block size + its coordinate inside the block. -/
theorem flushed1 (c : Dev nD) (t : Fin cfg1.N) :
    (dat1 V c).flushed 5 t = ((cfg1.win 5).blk t).view.read (Elt Ideal)
      (combine (V c main_v46) (V c main_v59) (V c main_v61) (V c main_v63) (V c main_arg5)) := by
  show (cfg1.win 5).cut (grid1.coords t) ((dat1 V c).after 5 t) = _
  rw [after1_5]
  unfold out1_5
  rw [View.canon_unit_zero hz2]
  simp only [View.ld_unit_zero (S := S10000x16) hz2, View.ld_unit_zero (S := S16x1) hz2, View.ld_unit_zero (S := S1) hz1]
  obtain ⟨a0, a1, b0, b1, c0, c1, d0, d1, f0, g0, g1⟩ := idx1 t
  funext j
  show k1_pay1 (iblk1 V c 0 t) (iblk1 V c 1 t) (iblk1 V c 2 t) (iblk1 V c 3 t) (iblk1 V c 4 t) j
    = combine (V c main_v46) (V c main_v59) (V c main_v61) (V c main_v63) (V c main_arg5) (((cfg1.win 5).blk t).view.emb j)
  refine point1 (V c main_v46) (V c main_v59) (V c main_v61) (V c main_v63) (V c main_arg5)
    (iblk1 V c 0 t) (iblk1 V c 1 t) (iblk1 V c 2 t) (iblk1 V c 3 t) (iblk1 V c 4 t) (t.val * 10000)
    (fun y => ((cfg1.win 0).blk t).view.emb y) (fun y => ((cfg1.win 1).blk t).view.emb y)
    (fun y => ((cfg1.win 2).blk t).view.emb y) (fun y => ((cfg1.win 3).blk t).view.emb y)
    (fun y => ((cfg1.win 4).blk t).view.emb y)
    (fun y => rfl) (fun y => rfl) (fun y => rfl) (fun y => rfl) (fun y => rfl)
    (fun y => ⟨?_, ?_⟩) (fun y => ⟨?_, ?_⟩) (fun y => ⟨?_, ?_⟩) (fun y => ⟨?_, ?_⟩) (fun y => ?_)
    j (((cfg1.win 5).blk t).view.emb j) ⟨?_, ?_⟩
  · show win1_0.index t (0 : Fin 2) * 10000 + 1 * (y 0).val = t.val * 10000 + (y 0).val; omega
  · show win1_0.index t (1 : Fin 2) * 16 + 1 * (y 1).val = (y 1).val; omega
  · show win1_1.index t (0 : Fin 2) * 10000 + 1 * (y 0).val = t.val * 10000 + (y 0).val; omega
  · show win1_1.index t (1 : Fin 2) * 16 + 1 * (y 1).val = (y 1).val; omega
  · show win1_2.index t (0 : Fin 2) * 16 + 1 * (y 0).val = (y 0).val; omega
  · show win1_2.index t (1 : Fin 2) * 1 + 1 * (y 1).val = (y 1).val; omega
  · show win1_3.index t (0 : Fin 2) * 16 + 1 * (y 0).val = (y 0).val; omega
  · show win1_3.index t (1 : Fin 2) * 1 + 1 * (y 1).val = (y 1).val; omega
  · show win1_4.index t (0 : Fin 1) * 1 + 1 * (y 0).val = (y 0).val; omega
  · show win1_5.index t (0 : Fin 2) * 10000 + 1 * (j 0).val = t.val * 10000 + (j 0).val; omega
  · show win1_5.index t (1 : Fin 2) * 1 + 1 * (j 1).val = (j 1).val; omega

/-- An index of the output array is in point `t`'s block iff each coordinate is in the block's range on its axis. -/
theorem mem_blk1 (t : Fin cfg1.N) (i : S100000x1.Idx) :
    i ∈ ((cfg1.win 5).blk t).view.set ↔ ∀ a : Fin 2, win1_5.index t a * S10000x1.size a ≤ (i a).val ∧ (i a).val < win1_5.index t a * S10000x1.size a + S10000x1.size a := by
  show i ∈ ((View.whole main_v64).slice (win1_5.rect t)).set ↔ _
  rw [View.set_slice_whole, Rect.mem_set_unit]
  exact Iff.rfl

/-- THE COVER: row `r` of the output lies in the block of the point `r / 10000`; the ten blocks of 10000 rows fill
    the 100000 rows. -/
theorem cover1 (i : S100000x1.Idx) : ∃ t : Fin cfg1.N, (cfg1.win 5).flush t = true ∧ i ∈ ((cfg1.win 5).blk t).view.set := by
  have hi0 : (i 0).val < 100000 := (i 0).isLt
  have hi1 : (i 1).val < 1 := (i 1).isLt
  have hN : cfg1.N = 10 := N_1
  obtain ⟨t, ht⟩ : ∃ t : Fin cfg1.N, t.val = (i 0).val / 10000 := ⟨⟨(i 0).val / 10000, by rw [hN]; omega⟩, rfl⟩
  refine ⟨t, flush1_5 t, ?_⟩
  rw [mem_blk1]
  obtain ⟨a0, a1, b0, b1, c0, c1, d0, d1, f0, g0, g1⟩ := idx1 t
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 1 ≤ (i 1).val ∧ (i 1).val < win1_5.index t (1 : Fin 2) * 1 + 1; omega

/-- THE OUTPUT ARRAY after the region: the layer's function of the arrays as the region finds them. -/
theorem final1 (c : Dev nD) : (dat1 V c).arrAt 5 cfg1.N
    = combine (V c main_v46) (V c main_v59) (V c main_v61) (V c main_v63) (V c main_arg5) :=
  (dat1 V c).arrAt_eq_of_cover 5 _ (fun t _ => flushed1 V c t) cover1

end Cert.KernelIdeal.Blocks1

end
-- ==== Proof.KHost.lean ====
/-
  The arrays the two regions find on entry, and the kernel's result as the specification's two layers.

  The kernel's host program computes, before the first region, the propagation of the node features and the two
  slices of the first weight array; between the regions, the propagation of the first region's output and the two
  slices of the second weight array. These are the operations the reference applies (its stages `val_main_v…`, and
  the two propagations named in `Cert.ReferenceIdeal.Bridge`), applied to the launch contents of the arguments and,
  for the second propagation, to the first region's output array. A region leaves every buffer that is not one of
  its arrays as it found it, so what the first stretch of host operations computed is still there for the second.
  Chaining the two regions' output arrays (each the layer's function of what the region finds) gives the result.
-/
import proofs.«167895_j70050916598068_2_alg».proof.Proof.Gen.KernelIdeal.Frame
import proofs.«167895_j70050916598068_2_alg».proof.Proof.KVal0
import proofs.«167895_j70050916598068_2_alg».proof.Proof.KVal1
import proofs.«167895_j70050916598068_2_alg».proof.Proof.RefSide
import Idealize.ShloMosaic.Lib.StableHlo.Run
import Idealize.ShloMosaic.PureOps.Ideal

set_option maxRecDepth 16384

noncomputable section

namespace Cert.KernelIdeal.Host

open Cert.KernelIdeal Cert.KernelIdeal.Gen Cert.Cheb
open Idealize.ShloMosaic Idealize.ShloMosaic.TcCoe Idealize.ShloMosaic.StableHlo
open Idealize.SL Idealize.SL.Sem

/-! ## The host stretches, each from ANY entry contents

Each stretch of host operations is a function of the few buffers it reads. It is read here from entry contents `Vx`
of which only those buffers are known (hypotheses `Vx b = …`, each a stage of the reference or an argument); what the
stretch writes is then again a stage of the reference, by the stage's definition. -/

section Stretches

variable (Vx : Valuation τ sig (Elt Ideal))

/-! ### The first stretch: the edge list's two rows, the degrees, their inverse square roots -/

/-- The edges' targets: row 0 of the edge list. -/
theorem s0_v1 (e : (⟨Cert.ReferenceIdeal.S2x6400000, .i32⟩ : BufTy).Contents (Elt Ideal)) (h : Vx (Proc.devRef .tc main_arg1) = e) :
    StableHlo.after hostOps0 Vx (Proc.devRef .tc main_v1) = Cert.ReferenceIdeal.ReadP.val_main_v1 (F := Ideal) e := by
  dsimp only [hostOps0]
  after_results_simp
  try rw [h]
  try rfl

/-- The edges' sources: row 1 of the edge list. -/
theorem s0_v3 (e : (⟨Cert.ReferenceIdeal.S2x6400000, .i32⟩ : BufTy).Contents (Elt Ideal)) (h : Vx (Proc.devRef .tc main_arg1) = e) :
    StableHlo.after hostOps0 Vx (Proc.devRef .tc main_v3) = Cert.ReferenceIdeal.ReadP.val_main_v3 (F := Ideal) e := by
  dsimp only [hostOps0]
  after_results_simp
  try rw [h]
  try rfl

/-- Where the degree is positive. -/
theorem s0_v9 (e : (⟨Cert.ReferenceIdeal.S2x6400000, .i32⟩ : BufTy).Contents (Elt Ideal)) (h : Vx (Proc.devRef .tc main_arg1) = e) :
    StableHlo.after hostOps0 Vx (Proc.devRef .tc main_v9) = Cert.ReferenceIdeal.ReadP.val_main_v9 (F := Ideal) e := by
  dsimp only [hostOps0]
  after_results_simp
  try rw [h]
  try rfl

/-- One over the square root of the degree. -/
theorem s0_v12 (e : (⟨Cert.ReferenceIdeal.S2x6400000, .i32⟩ : BufTy).Contents (Elt Ideal)) (h : Vx (Proc.devRef .tc main_arg1) = e) :
    StableHlo.after hostOps0 Vx (Proc.devRef .tc main_v12) = Cert.ReferenceIdeal.ReadP.val_main_v12 (F := Ideal) e := by
  dsimp only [hostOps0]
  after_results_simp
  try rw [h]
  try rfl

/-- The zero the selection falls back to. -/
theorem s0_cst3  :
    StableHlo.after hostOps0 Vx (Proc.devRef .tc main_cst_3) = Cert.ReferenceIdeal.ReadP.val_main_cst_3 (F := Ideal) := by
  dsimp only [hostOps0]
  after_results_simp
  skip
  try rfl

theorem s0_keep_main_arg0  :
    StableHlo.after hostOps0 Vx (Proc.devRef .tc main_arg0) = Vx (Proc.devRef .tc main_arg0) := by
  dsimp only [hostOps0]
  after_results_simp
  skip
  try rfl

theorem s0_keep_main_arg2  :
    StableHlo.after hostOps0 Vx (Proc.devRef .tc main_arg2) = Vx (Proc.devRef .tc main_arg2) := by
  dsimp only [hostOps0]
  after_results_simp
  skip
  try rfl

theorem s0_keep_main_arg3  :
    StableHlo.after hostOps0 Vx (Proc.devRef .tc main_arg3) = Vx (Proc.devRef .tc main_arg3) := by
  dsimp only [hostOps0]
  after_results_simp
  skip
  try rfl

theorem s0_keep_main_arg4  :
    StableHlo.after hostOps0 Vx (Proc.devRef .tc main_arg4) = Vx (Proc.devRef .tc main_arg4) := by
  dsimp only [hostOps0]
  after_results_simp
  skip
  try rfl

theorem s0_keep_main_arg5  :
    StableHlo.after hostOps0 Vx (Proc.devRef .tc main_arg5) = Vx (Proc.devRef .tc main_arg5) := by
  dsimp only [hostOps0]
  after_results_simp
  skip
  try rfl

/-! ### The second stretch: the selection `where(deg > 0, 1/√deg, 0)` -/

/-- The selection over variables: the transports between a buffer's contents and a tensor value's are the
    identity at literal references. -/
theorem s1_v13_vars (a : (⟨Cert.ReferenceIdeal.S100000, .i1⟩ : BufTy).Contents (Elt Ideal)) (b : (⟨Cert.ReferenceIdeal.S100000, .f32⟩ : BufTy).Contents (Elt Ideal)) (d : (⟨Cert.ReferenceIdeal.S_, .f32⟩ : BufTy).Contents (Elt Ideal))
    (h9 : Vx (Proc.devRef .tc main_v9) = a) (h12 : Vx (Proc.devRef .tc main_v12) = b) (hc : Vx (Proc.devRef .tc main_cst_3) = d) :
    StableHlo.after hostOps0_1 Vx (Proc.devRef .tc main_v13) = select a b (broadcastInDim S100000 ![] bcast_S_S100000 d) := by
  dsimp only [hostOps0_1]
  after_results_simp
  rw [h9, h12, hc]
  rfl

/-- The inverse square roots of the degrees, zero where the degree is zero. -/
theorem s1_v13 (e : (⟨Cert.ReferenceIdeal.S2x6400000, .i32⟩ : BufTy).Contents (Elt Ideal)) (h9 : Vx (Proc.devRef .tc main_v9) = Cert.ReferenceIdeal.ReadP.val_main_v9 (F := Ideal) e)
    (h12 : Vx (Proc.devRef .tc main_v12) = Cert.ReferenceIdeal.ReadP.val_main_v12 (F := Ideal) e) (hc : Vx (Proc.devRef .tc main_cst_3) = Cert.ReferenceIdeal.ReadP.val_main_cst_3 (F := Ideal)) :
    StableHlo.after hostOps0_1 Vx (Proc.devRef .tc main_v13) = Cert.ReferenceIdeal.ReadP.val_main_v13 (F := Ideal) e :=
  (s1_v13_vars Vx _ _ _ h9 h12 hc).trans rfl

theorem s1_keep_main_arg0  :
    StableHlo.after hostOps0_1 Vx (Proc.devRef .tc main_arg0) = Vx (Proc.devRef .tc main_arg0) := by
  dsimp only [hostOps0_1]
  after_results_simp
  skip
  try rfl

theorem s1_keep_main_arg2  :
    StableHlo.after hostOps0_1 Vx (Proc.devRef .tc main_arg2) = Vx (Proc.devRef .tc main_arg2) := by
  dsimp only [hostOps0_1]
  after_results_simp
  skip
  try rfl

theorem s1_keep_main_arg3  :
    StableHlo.after hostOps0_1 Vx (Proc.devRef .tc main_arg3) = Vx (Proc.devRef .tc main_arg3) := by
  dsimp only [hostOps0_1]
  after_results_simp
  skip
  try rfl

theorem s1_keep_main_arg4  :
    StableHlo.after hostOps0_1 Vx (Proc.devRef .tc main_arg4) = Vx (Proc.devRef .tc main_arg4) := by
  dsimp only [hostOps0_1]
  after_results_simp
  skip
  try rfl

theorem s1_keep_main_arg5  :
    StableHlo.after hostOps0_1 Vx (Proc.devRef .tc main_arg5) = Vx (Proc.devRef .tc main_arg5) := by
  dsimp only [hostOps0_1]
  after_results_simp
  skip
  try rfl

theorem s1_keep_main_v1  :
    StableHlo.after hostOps0_1 Vx (Proc.devRef .tc main_v1) = Vx (Proc.devRef .tc main_v1) := by
  dsimp only [hostOps0_1]
  after_results_simp
  skip
  try rfl

theorem s1_keep_main_v3  :
    StableHlo.after hostOps0_1 Vx (Proc.devRef .tc main_v3) = Vx (Proc.devRef .tc main_v3) := by
  dsimp only [hostOps0_1]
  after_results_simp
  skip
  try rfl

/-! ### The third stretch: the edge weights, the propagated node features, the first layer's weight slices -/

/-- The edge weights. -/
theorem s2_v29 (e : (⟨Cert.ReferenceIdeal.S2x6400000, .i32⟩ : BufTy).Contents (Elt Ideal)) (h1 : Vx (Proc.devRef .tc main_v1) = Cert.ReferenceIdeal.ReadP.val_main_v1 (F := Ideal) e) (h3 : Vx (Proc.devRef .tc main_v3) = Cert.ReferenceIdeal.ReadP.val_main_v3 (F := Ideal) e) (h13 : Vx (Proc.devRef .tc main_v13) = Cert.ReferenceIdeal.ReadP.val_main_v13 (F := Ideal) e) :
    StableHlo.after hostOps0_2 Vx (Proc.devRef .tc main_v29) = Cert.ReferenceIdeal.ReadP.val_main_v29 (F := Ideal) e := by
  dsimp only [hostOps0_2]
  after_results_simp
  try rw [h1, h3, h13]
  try rfl

/-- The propagated node features. -/
theorem s2_v41 (x0 : (⟨Cert.ReferenceIdeal.S100000x1, .f32⟩ : BufTy).Contents (Elt Ideal)) (e : (⟨Cert.ReferenceIdeal.S2x6400000, .i32⟩ : BufTy).Contents (Elt Ideal)) (h0 : Vx (Proc.devRef .tc main_arg0) = x0) (h1 : Vx (Proc.devRef .tc main_v1) = Cert.ReferenceIdeal.ReadP.val_main_v1 (F := Ideal) e) (h3 : Vx (Proc.devRef .tc main_v3) = Cert.ReferenceIdeal.ReadP.val_main_v3 (F := Ideal) e) (h13 : Vx (Proc.devRef .tc main_v13) = Cert.ReferenceIdeal.ReadP.val_main_v13 (F := Ideal) e) :
    StableHlo.after hostOps0_2 Vx (Proc.devRef .tc main_v41) = Cert.ReferenceIdeal.Bridge.propagate1 (F := Ideal) x0 e := by
  dsimp only [hostOps0_2]
  after_results_simp
  try rw [h0, h1, h3, h13]
  try rfl

/-- The weight slice `W1[0]`. -/
theorem s2_v43 (x2 : (⟨Cert.ReferenceIdeal.S2x1x16, .f32⟩ : BufTy).Contents (Elt Ideal)) (h2 : Vx (Proc.devRef .tc main_arg2) = x2) :
    StableHlo.after hostOps0_2 Vx (Proc.devRef .tc main_v43) = Cert.ReferenceIdeal.ReadP.val_main_v31 (F := Ideal) x2 := by
  dsimp only [hostOps0_2]
  after_results_simp
  try rw [h2]
  try rfl

/-- The weight slice `W1[1]`. -/
theorem s2_v45 (x2 : (⟨Cert.ReferenceIdeal.S2x1x16, .f32⟩ : BufTy).Contents (Elt Ideal)) (h2 : Vx (Proc.devRef .tc main_arg2) = x2) :
    StableHlo.after hostOps0_2 Vx (Proc.devRef .tc main_v45) = Cert.ReferenceIdeal.ReadP.val_main_v46 (F := Ideal) x2 := by
  dsimp only [hostOps0_2]
  after_results_simp
  try rw [h2]
  try rfl

theorem s2_keep_main_arg0  :
    StableHlo.after hostOps0_2 Vx (Proc.devRef .tc main_arg0) = Vx (Proc.devRef .tc main_arg0) := by
  dsimp only [hostOps0_2]
  after_results_simp
  skip
  try rfl

theorem s2_keep_main_arg3  :
    StableHlo.after hostOps0_2 Vx (Proc.devRef .tc main_arg3) = Vx (Proc.devRef .tc main_arg3) := by
  dsimp only [hostOps0_2]
  after_results_simp
  skip
  try rfl

theorem s2_keep_main_arg4  :
    StableHlo.after hostOps0_2 Vx (Proc.devRef .tc main_arg4) = Vx (Proc.devRef .tc main_arg4) := by
  dsimp only [hostOps0_2]
  after_results_simp
  skip
  try rfl

theorem s2_keep_main_arg5  :
    StableHlo.after hostOps0_2 Vx (Proc.devRef .tc main_arg5) = Vx (Proc.devRef .tc main_arg5) := by
  dsimp only [hostOps0_2]
  after_results_simp
  skip
  try rfl

theorem s2_keep_main_v1  :
    StableHlo.after hostOps0_2 Vx (Proc.devRef .tc main_v1) = Vx (Proc.devRef .tc main_v1) := by
  dsimp only [hostOps0_2]
  after_results_simp
  skip
  try rfl

theorem s2_keep_main_v3  :
    StableHlo.after hostOps0_2 Vx (Proc.devRef .tc main_v3) = Vx (Proc.devRef .tc main_v3) := by
  dsimp only [hostOps0_2]
  after_results_simp
  skip
  try rfl

/-! ### The stretch between the regions: the propagated hidden features, the second layer's weight slices -/

/-- The propagated hidden features. -/
theorem s3_v59 (h : (⟨Cert.ReferenceIdeal.S100000x16, .f32⟩ : BufTy).Contents (Elt Ideal)) (e : (⟨Cert.ReferenceIdeal.S2x6400000, .i32⟩ : BufTy).Contents (Elt Ideal)) (h46 : Vx (Proc.devRef .tc main_v46) = h) (h1 : Vx (Proc.devRef .tc main_v1) = Cert.ReferenceIdeal.ReadP.val_main_v1 (F := Ideal) e) (h3 : Vx (Proc.devRef .tc main_v3) = Cert.ReferenceIdeal.ReadP.val_main_v3 (F := Ideal) e) (h29 : Vx (Proc.devRef .tc main_v29) = Cert.ReferenceIdeal.ReadP.val_main_v29 (F := Ideal) e) :
    StableHlo.after hostOps1 Vx (Proc.devRef .tc main_v59) = Cert.ReferenceIdeal.Bridge.propagate16 (F := Ideal) h e := by
  dsimp only [hostOps1]
  after_results_simp
  try rw [h46, h1, h3, h29]
  try rfl

/-- The weight slice `W2[0]`. -/
theorem s3_v61 (x4 : (⟨Cert.ReferenceIdeal.S2x16x1, .f32⟩ : BufTy).Contents (Elt Ideal)) (h4 : Vx (Proc.devRef .tc main_arg4) = x4) :
    StableHlo.after hostOps1 Vx (Proc.devRef .tc main_v61) = Cert.ReferenceIdeal.ReadP.val_main_v54 (F := Ideal) x4 := by
  dsimp only [hostOps1]
  after_results_simp
  try rw [h4]
  try rfl

/-- The weight slice `W2[1]`. -/
theorem s3_v63 (x4 : (⟨Cert.ReferenceIdeal.S2x16x1, .f32⟩ : BufTy).Contents (Elt Ideal)) (h4 : Vx (Proc.devRef .tc main_arg4) = x4) :
    StableHlo.after hostOps1 Vx (Proc.devRef .tc main_v63) = Cert.ReferenceIdeal.ReadP.val_main_v70 (F := Ideal) x4 := by
  dsimp only [hostOps1]
  after_results_simp
  try rw [h4]
  try rfl

theorem s3_keep_main_v46  :
    StableHlo.after hostOps1 Vx (Proc.devRef .tc main_v46) = Vx (Proc.devRef .tc main_v46) := by
  dsimp only [hostOps1]
  after_results_simp
  skip
  try rfl

theorem s3_keep_main_arg5  :
    StableHlo.after hostOps1 Vx (Proc.devRef .tc main_arg5) = Vx (Proc.devRef .tc main_arg5) := by
  dsimp only [hostOps1]
  after_results_simp
  skip
  try rfl

end Stretches

/-! ## The contents at each boundary, read

`W0` is the launch memory; `W1`, `W2`, `W3` follow the three host stretches before the first region (`V3` is `W3`
at the TensorCore's references); `W4` is the first region's exit; `W5` follows the stretch between the regions
(`V5` likewise). A region leaves every buffer that is not one of its arrays as it found it. -/

section Boundaries

variable (m : (ℓ : Loc nD τ sig) → Buf (Elt Ideal) ℓ) (ρ : Dev nD → PrngReg) (c : Dev nD)

theorem w1_arg0 : W1 m ρ c (Proc.devRef .tc main_arg0) = (m ((c : Thread nD τ).loc main_arg0)) := (s0_keep_main_arg0 (W0 m ρ c)).trans rfl
theorem w1_arg1 : W1 m ρ c (Proc.devRef .tc main_arg1) = (m ((c : Thread nD τ).loc main_arg1)) := by
  dsimp only [W1, W0, hostOps0]
  after_results_simp
  try rfl
theorem w1_arg2 : W1 m ρ c (Proc.devRef .tc main_arg2) = (m ((c : Thread nD τ).loc main_arg2)) := (s0_keep_main_arg2 (W0 m ρ c)).trans rfl
theorem w1_arg3 : W1 m ρ c (Proc.devRef .tc main_arg3) = (m ((c : Thread nD τ).loc main_arg3)) := (s0_keep_main_arg3 (W0 m ρ c)).trans rfl
theorem w1_arg4 : W1 m ρ c (Proc.devRef .tc main_arg4) = (m ((c : Thread nD τ).loc main_arg4)) := (s0_keep_main_arg4 (W0 m ρ c)).trans rfl
theorem w1_arg5 : W1 m ρ c (Proc.devRef .tc main_arg5) = (m ((c : Thread nD τ).loc main_arg5)) := (s0_keep_main_arg5 (W0 m ρ c)).trans rfl
theorem w1_v1 : W1 m ρ c (Proc.devRef .tc main_v1) = Cert.ReferenceIdeal.ReadP.val_main_v1 (F := Ideal) (m ((c : Thread nD τ).loc main_arg1)) := s0_v1 (W0 m ρ c) _ rfl
theorem w1_v3 : W1 m ρ c (Proc.devRef .tc main_v3) = Cert.ReferenceIdeal.ReadP.val_main_v3 (F := Ideal) (m ((c : Thread nD τ).loc main_arg1)) := s0_v3 (W0 m ρ c) _ rfl
theorem w1_v9 : W1 m ρ c (Proc.devRef .tc main_v9) = Cert.ReferenceIdeal.ReadP.val_main_v9 (F := Ideal) (m ((c : Thread nD τ).loc main_arg1)) := s0_v9 (W0 m ρ c) _ rfl
theorem w1_v12 : W1 m ρ c (Proc.devRef .tc main_v12) = Cert.ReferenceIdeal.ReadP.val_main_v12 (F := Ideal) (m ((c : Thread nD τ).loc main_arg1)) := s0_v12 (W0 m ρ c) _ rfl
theorem w1_cst3 : W1 m ρ c (Proc.devRef .tc main_cst_3) = Cert.ReferenceIdeal.ReadP.val_main_cst_3 (F := Ideal) := s0_cst3 (W0 m ρ c)

theorem w2_arg0 : W2 m ρ c (Proc.devRef .tc main_arg0) = (m ((c : Thread nD τ).loc main_arg0)) := (s1_keep_main_arg0 (W1 m ρ c)).trans (w1_arg0 m ρ c)
theorem w2_arg2 : W2 m ρ c (Proc.devRef .tc main_arg2) = (m ((c : Thread nD τ).loc main_arg2)) := (s1_keep_main_arg2 (W1 m ρ c)).trans (w1_arg2 m ρ c)
theorem w2_arg3 : W2 m ρ c (Proc.devRef .tc main_arg3) = (m ((c : Thread nD τ).loc main_arg3)) := (s1_keep_main_arg3 (W1 m ρ c)).trans (w1_arg3 m ρ c)
theorem w2_arg4 : W2 m ρ c (Proc.devRef .tc main_arg4) = (m ((c : Thread nD τ).loc main_arg4)) := (s1_keep_main_arg4 (W1 m ρ c)).trans (w1_arg4 m ρ c)
theorem w2_arg5 : W2 m ρ c (Proc.devRef .tc main_arg5) = (m ((c : Thread nD τ).loc main_arg5)) := (s1_keep_main_arg5 (W1 m ρ c)).trans (w1_arg5 m ρ c)
theorem w2_v1 : W2 m ρ c (Proc.devRef .tc main_v1) = Cert.ReferenceIdeal.ReadP.val_main_v1 (F := Ideal) (m ((c : Thread nD τ).loc main_arg1)) := (s1_keep_main_v1 (W1 m ρ c)).trans (w1_v1 m ρ c)
theorem w2_v3 : W2 m ρ c (Proc.devRef .tc main_v3) = Cert.ReferenceIdeal.ReadP.val_main_v3 (F := Ideal) (m ((c : Thread nD τ).loc main_arg1)) := (s1_keep_main_v3 (W1 m ρ c)).trans (w1_v3 m ρ c)
theorem w2_v13 : W2 m ρ c (Proc.devRef .tc main_v13) = Cert.ReferenceIdeal.ReadP.val_main_v13 (F := Ideal) (m ((c : Thread nD τ).loc main_arg1)) :=
  s1_v13 (W1 m ρ c) _ (w1_v9 m ρ c) (w1_v12 m ρ c) (w1_cst3 m ρ c)

/-! ### What the first region finds -/

/-- The node features are the launch contents: no host operation writes an argument. -/
theorem V3_arg0 : V3 m ρ c main_arg0 = (m ((c : Thread nD τ).loc main_arg0)) := (s2_keep_main_arg0 (W2 m ρ c)).trans (w2_arg0 m ρ c)
/-- The first bias likewise. -/
theorem V3_arg3 : V3 m ρ c main_arg3 = (m ((c : Thread nD τ).loc main_arg3)) := (s2_keep_main_arg3 (W2 m ρ c)).trans (w2_arg3 m ρ c)
/-- The propagated node features: the reference's propagation of the launch contents. -/
theorem V3_v41 : V3 m ρ c main_v41 = Cert.ReferenceIdeal.Bridge.propagate1 (F := Ideal) (m ((c : Thread nD τ).loc main_arg0)) (m ((c : Thread nD τ).loc main_arg1)) :=
  s2_v41 (W2 m ρ c) _ _ (w2_arg0 m ρ c) (w2_v1 m ρ c) (w2_v3 m ρ c) (w2_v13 m ρ c)
/-- The first weight slice `W1[0]`. -/
theorem V3_v43 : V3 m ρ c main_v43 = Cert.ReferenceIdeal.ReadP.val_main_v31 (F := Ideal) (m ((c : Thread nD τ).loc main_arg2)) := s2_v43 (W2 m ρ c) _ (w2_arg2 m ρ c)
/-- The second weight slice `W1[1]`. -/
theorem V3_v45 : V3 m ρ c main_v45 = Cert.ReferenceIdeal.ReadP.val_main_v46 (F := Ideal) (m ((c : Thread nD τ).loc main_arg2)) := s2_v45 (W2 m ρ c) _ (w2_arg2 m ρ c)

theorem w3_v1 : W3 m ρ c (Proc.devRef .tc main_v1) = Cert.ReferenceIdeal.ReadP.val_main_v1 (F := Ideal) (m ((c : Thread nD τ).loc main_arg1)) := (s2_keep_main_v1 (W2 m ρ c)).trans (w2_v1 m ρ c)
theorem w3_v3 : W3 m ρ c (Proc.devRef .tc main_v3) = Cert.ReferenceIdeal.ReadP.val_main_v3 (F := Ideal) (m ((c : Thread nD τ).loc main_arg1)) := (s2_keep_main_v3 (W2 m ρ c)).trans (w2_v3 m ρ c)
theorem w3_v29 : W3 m ρ c (Proc.devRef .tc main_v29) = Cert.ReferenceIdeal.ReadP.val_main_v29 (F := Ideal) (m ((c : Thread nD τ).loc main_arg1)) :=
  s2_v29 (W2 m ρ c) _ (w2_v1 m ρ c) (w2_v3 m ρ c) (w2_v13 m ρ c)
theorem w3_arg4 : W3 m ρ c (Proc.devRef .tc main_arg4) = (m ((c : Thread nD τ).loc main_arg4)) := (s2_keep_main_arg4 (W2 m ρ c)).trans (w2_arg4 m ρ c)
theorem w3_arg5 : W3 m ρ c (Proc.devRef .tc main_arg5) = (m ((c : Thread nD τ).loc main_arg5)) := (s2_keep_main_arg5 (W2 m ρ c)).trans (w2_arg5 m ρ c)

/-! ### What the second region finds -/

theorem w4_v1 : W4 m ρ c (Proc.devRef .tc main_v1) = Cert.ReferenceIdeal.ReadP.val_main_v1 (F := Ideal) (m ((c : Thread nD τ).loc main_arg1)) := (W4_of_ne m ρ c main_v1 (by decide)).trans (w3_v1 m ρ c)
theorem w4_v3 : W4 m ρ c (Proc.devRef .tc main_v3) = Cert.ReferenceIdeal.ReadP.val_main_v3 (F := Ideal) (m ((c : Thread nD τ).loc main_arg1)) := (W4_of_ne m ρ c main_v3 (by decide)).trans (w3_v3 m ρ c)
theorem w4_v29 : W4 m ρ c (Proc.devRef .tc main_v29) = Cert.ReferenceIdeal.ReadP.val_main_v29 (F := Ideal) (m ((c : Thread nD τ).loc main_arg1)) := (W4_of_ne m ρ c main_v29 (by decide)).trans (w3_v29 m ρ c)
theorem w4_arg4 : W4 m ρ c (Proc.devRef .tc main_arg4) = (m ((c : Thread nD τ).loc main_arg4)) := (W4_of_ne m ρ c main_arg4 (by decide)).trans (w3_arg4 m ρ c)
theorem w4_arg5 : W4 m ρ c (Proc.devRef .tc main_arg5) = (m ((c : Thread nD τ).loc main_arg5)) := (W4_of_ne m ρ c main_arg5 (by decide)).trans (w3_arg5 m ρ c)

/-- The hidden features are the first region's output array: the host operations in between do not write it. -/
theorem V5_v46 : V5 m ρ c main_v46 = W4 m ρ c (Proc.devRef .tc main_v46) := s3_keep_main_v46 (W4 m ρ c)
/-- The propagated hidden features: the reference's propagation of the first region's output array, along the
    edge list's launch contents (the edge weights and indices the first stretches computed are still in place). -/
theorem V5_v59 : V5 m ρ c main_v59 = Cert.ReferenceIdeal.Bridge.propagate16 (F := Ideal) (W4 m ρ c (Proc.devRef .tc main_v46)) (m ((c : Thread nD τ).loc main_arg1)) :=
  s3_v59 (W4 m ρ c) _ _ rfl (w4_v1 m ρ c) (w4_v3 m ρ c) (w4_v29 m ρ c)
/-- The first weight slice `W2[0]`. -/
theorem V5_v61 : V5 m ρ c main_v61 = Cert.ReferenceIdeal.ReadP.val_main_v54 (F := Ideal) (m ((c : Thread nD τ).loc main_arg4)) := s3_v61 (W4 m ρ c) _ (w4_arg4 m ρ c)
/-- The second weight slice `W2[1]`. -/
theorem V5_v63 : V5 m ρ c main_v63 = Cert.ReferenceIdeal.ReadP.val_main_v70 (F := Ideal) (m ((c : Thread nD τ).loc main_arg4)) := s3_v63 (W4 m ρ c) _ (w4_arg4 m ρ c)
/-- The second bias is the launch contents. -/
theorem V5_arg5 : V5 m ρ c main_arg5 = (m ((c : Thread nD τ).loc main_arg5)) := (s3_keep_main_arg5 (W4 m ρ c)).trans (w4_arg5 m ρ c)

/-! ### The result -/

/-- The hidden features `h`: the specification's rectified first layer of the launch contents. -/
def hidden : (⟨2, ![100000, 16]⟩ : Shape).Idx → EReal :=
  combineRelu (m ((c : Thread nD τ).loc main_arg0))
    (Cert.ReferenceIdeal.Bridge.propagate1 (F := Ideal) (m ((c : Thread nD τ).loc main_arg0)) (m ((c : Thread nD τ).loc main_arg1)))
    (Cert.ReferenceIdeal.ReadP.val_main_v31 (F := Ideal) (m ((c : Thread nD τ).loc main_arg2)))
    (Cert.ReferenceIdeal.ReadP.val_main_v46 (F := Ideal) (m ((c : Thread nD τ).loc main_arg2)))
    (m ((c : Thread nD τ).loc main_arg3))

/-- The first region's output array is `h`. -/
theorem W4_v46 : W4 m ρ c (Proc.devRef .tc main_v46) = hidden m c := by
  rw [show W4 m ρ c (Proc.devRef .tc main_v46) = (dat0 (V3 m ρ) c).arrAt 5 cfg0.N from W4_arr m ρ c 5]
  rw [Cert.KernelIdeal.Blocks0.final0 (V3 m ρ) c, V3_arg0, V3_v41, V3_v43, V3_v45, V3_arg3]
  rfl

/-- THE RESULT: the last boundary's contents at the result's reference are the specification's second layer of `h`,
    its propagation, the two slices of the second weight array and the second bias. -/
theorem result_eq : W6 m ρ c (Proc.devRef .tc main_v64)
    = combine (hidden m c) (Cert.ReferenceIdeal.Bridge.propagate16 (F := Ideal) (hidden m c) (m ((c : Thread nD τ).loc main_arg1)))
        (Cert.ReferenceIdeal.ReadP.val_main_v54 (F := Ideal) (m ((c : Thread nD τ).loc main_arg4)))
        (Cert.ReferenceIdeal.ReadP.val_main_v70 (F := Ideal) (m ((c : Thread nD τ).loc main_arg4)))
        (m ((c : Thread nD τ).loc main_arg5)) := by
  rw [show W6 m ρ c (Proc.devRef .tc main_v64) = (dat1 (V5 m ρ) c).arrAt 5 cfg1.N from W6_arr m ρ c 5]
  rw [Cert.KernelIdeal.Blocks1.final1 (V5 m ρ) c, V5_v46, V5_v59, V5_v61, V5_v63, V5_arg5, W4_v46]

end Boundaries

end Cert.KernelIdeal.Host

end
-- ==== Proof.lean ====
/-
  A graph network of two Chebyshev layers of order two: the Pallas program against its jnp reference, at the
  extended reals.

  Both programs compute, from node features `x : [100000, 1]`, an edge list `e : [2, 6400000]`, weights
  `W1 : [2, 1, 16]`, `W2 : [2, 16, 1]` and biases `b1 : [16]`, `b2 : [1]`:

      w      = −(d[row] · d[col]),  d = 1/√deg where deg > 0, else 0,  deg = the number of edges into each node
      L̂ v   = scatter-add over the edges of w · v[col] into row
      h      = max((x · W1[0] + (L̂ x) · W1[1]) + b1, 0)                      : [100000, 16]
      result = (h · W2[0] + (L̂ h) · W2[1]) + b2                              : [100000, 1]

  The edge weights and the propagation `L̂` are host operations in both programs, the same ones in the same order, and
  are never opened: it is enough that they are applied to equal arrays. The kernel program computes each layer's
  combine in a pipelined region over ten blocks of 10000 rows (operands rounded to bf16 on the way into the matrix
  unit, which is the identity on the extended reals; each product into a zero accumulator); the reference computes it
  by two `dot_general`s on whole arrays. Read at an index both are the same sums over the contracted channel, added in
  the same grouping, so no law of the extended reals is needed and the precondition (finite inputs) is never opened.

  The modules: Spec (the layer, once), KPay (a grid point's stored value at an index), KVal0 / KVal1 (a region's
  output array as the layer's function of what the region finds), KRun (the kernel program's run with its result
  named), KHost (what the regions find, and the result), RefRun / RefReadGen (the reference's run and its stages),
  RefSide (the reference as the two layers).
-/
import proofs.«167895_j70050916598068_2_alg».proof.Defs
import proofs.«167895_j70050916598068_2_alg».proof.Proof.Gen.Kernel
import proofs.«167895_j70050916598068_2_alg».proof.Proof.Gen.Kernel.Skeleton
import proofs.«167895_j70050916598068_2_alg».proof.Proof.Gen.Kernel.Launch
import proofs.«167895_j70050916598068_2_alg».proof.Proof.Gen.Kernel.Points
import proofs.«167895_j70050916598068_2_alg».proof.Proof.Gen.Kernel.Frame
import proofs.«167895_j70050916598068_2_alg».proof.Proof.Gen.KernelIdeal
import proofs.«167895_j70050916598068_2_alg».proof.Proof.Gen.KernelIdeal.Skeleton
import proofs.«167895_j70050916598068_2_alg».proof.Proof.Gen.KernelIdeal.Launch
import proofs.«167895_j70050916598068_2_alg».proof.Proof.Gen.KernelIdeal.Points
import proofs.«167895_j70050916598068_2_alg».proof.Proof.Gen.KernelIdeal.Frame
import proofs.«167895_j70050916598068_2_alg».proof.Proof.Gen.ReferenceIdeal
import proofs.«167895_j70050916598068_2_alg».proof.Proof.Gen.Pre_finite_inputs
import proofs.«167895_j70050916598068_2_alg».proof.Proof.RefRun
import proofs.«167895_j70050916598068_2_alg».proof.Proof.RefSide
import proofs.«167895_j70050916598068_2_alg».proof.Proof.KRun
import proofs.«167895_j70050916598068_2_alg».proof.Proof.KHost
import Idealize.ShloMosaic.Adequacy
import Idealize.ShloMosaic.Init

noncomputable section

namespace Cert.Proof

open Idealize.ShloMosaic Idealize.SL.Sem

/-- The word-level program runs and leaves its arguments as launched: the generated frame. -/
theorem frame_kernel : Cert.frame_Kernel := fun m ρ _ => Cert.Kernel.Gen.frame m ρ

/-- The idealized program likewise. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealization is the program's own text read at the extended reals. -/
theorem preserves : Cert.preserves_Kernel_KernelIdeal := trivial

/-- From memories agreeing on the arguments both programs end with the same result: the kernel program's is the
    specification's second layer of the hidden features (`Cert.KernelIdeal.Host.result_eq`), the reference's last
    stage is the same (`Cert.ReferenceIdeal.Bridge.output_eq`, `hidden_eq`), of equal arguments. -/
theorem algebraic : Cert.algebraic_KernelIdeal_ReferenceIdeal := by
  intro m ρ m' ρ' _ hagree
  refine ⟨_, Cert.KernelIdeal.Run.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v75_eq, Cert.ReferenceIdeal.Bridge.output_eq, Cert.ReferenceIdeal.Bridge.hidden_eq,
    (hagree c).1, (hagree c).2.1, (hagree c).2.2.1, (hagree c).2.2.2.1, (hagree c).2.2.2.2.1, (hagree c).2.2.2.2.2]
  exact (Cert.KernelIdeal.Host.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
